-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S2x262144 : Shape := ⟨2, ![2, 262144]⟩
abbrev S262144 : Shape := ⟨1, ![262144]⟩
abbrev S64x256 : Shape := ⟨2, ![64, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128 .f32) (main_arg10 : FVec F S128x2 .f32) (main_arg11 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x2 .f32 := Host.absf main_arg10
  let main_cst_14 : FVec F S_ .f32 := constant S_ .f32 0x7F800000#32
  let main_v40 : FVec F S128x2 .f32 := broadcastInDim S128x2 ![] bcast_S_S128x2 main_cst_14
  let main_v41 : IVec S128x2 1 := cmpf .olt main_v39 main_v40
  let main_c_15 : IVec S_ 1 := constantI S_ 1 1#1
  let main_v42 : IVec S_ 1 := (fun x v => Host.reduce IntOp.andi x v reducesTo_S128x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S256x256 .f32) (main_arg7 : FVec F S256 .f32) (main_arg8 : FVec F S256x128 .f32) (main_arg9 : FVec F S128 .f32) (main_arg10 : FVec F S128x2 .f32) (main_arg11 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S262144x256 .f32) (main_arg1 : IVec S2x262144 32) (main_arg2 : IVec S262144 32) (main_arg3 : FVec F S64x256 .f32) (main_arg4 : FVec F S256x256 .f32) (main_arg5 : FVec F S256 .f32) (main_arg6 : FVec F S256x256 .f32) (main_arg7 : FVec F S256 .f32) (main_arg8 : FVec F S256x128 .f32) (main_arg9 : FVec F S128 .f32) (main_arg10 : FVec F S128x2 .f32) (main_arg11 : FVec F S2 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S64x256 .f32 := Host.absf main_arg3
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S262144x256 : Shape := ⟨2, ![262144, 256]⟩
abbrev S2x262144 : Shape := ⟨2, ![2, 262144]⟩
abbrev S262144 : Shape := ⟨1, ![262144]⟩
abbrev S64x256 : Shape := ⟨2, ![64, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x262144 : Shape := ⟨2, ![1, 262144]⟩
abbrev S524288 : Shape := ⟨1, ![524288]⟩
abbrev S_ : Shape := ⟨0, ![]⟩
abbrev S524288x1 : Shape := ⟨2, ![524288, 1]⟩
abbrev S4096x256 : Shape := ⟨2, ![4096, 256]⟩
abbrev S524288x256 : Shape := ⟨2, ![524288, 256]⟩
abbrev S262144x1 : Shape := ⟨2, ![262144, 1]⟩
abbrev S1x256 : Shape := ⟨2, ![1, 256]⟩
abbrev S2048x256 : Shape := ⟨2, ![2048, 256]⟩
abbrev S1x128 : Shape := ⟨2, ![1, 128]⟩
abbrev S1x2 : Shape := ⟨2, ![1, 2]⟩
abbrev S262144x2 : Shape := ⟨2, ![262144, 2]⟩
abbrev S4096x2 : Shape := ⟨2, ![4096, 2]⟩
abbrev S4096x128 : Shape := ⟨2, ![4096, 128]⟩

abbrev nBuf : Space → Nat
  | .hbm => 109
  | .vmem => 26
  | .smem => 0
  | _ => 0

abbrev bufTy : (tb : Table) → Fin (tcTables nBuf tb) → BufTy
  | .hbm, ⟨0, _⟩ => ⟨S262144x256, .f32⟩
  | .hbm, ⟨1, _⟩ => ⟨S2x262144, .i32⟩
  | .hbm, ⟨2, _⟩ => ⟨S262144, .i32⟩
  | .hbm, ⟨3, _⟩ => ⟨S64x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x2, .f32⟩
  | .hbm, ⟨11, _⟩ => ⟨S2, .f32⟩
  | .hbm, ⟨12, _⟩ => ⟨S1x262144, .i32⟩
  | .hbm, ⟨13, _⟩ => ⟨S262144, .i32⟩
  | .hbm, ⟨14, _⟩ => ⟨S1x262144, .i32⟩
  | .hbm, ⟨15, _⟩ => ⟨S262144, .i32⟩
  | .hbm, ⟨16, _⟩ => ⟨S262144, .i32⟩
  | .hbm, ⟨17, _⟩ => ⟨S524288, .i32⟩
  | .hbm, ⟨18, _⟩ => ⟨S524288, .i32⟩
  | .hbm, ⟨19, _⟩ => ⟨S_, .f32⟩
  | .hbm, ⟨20, _⟩ => ⟨S524288, .f32⟩
  | .hbm, ⟨21, _⟩ => ⟨S_, .f32⟩
  | .hbm, ⟨22, _⟩ => ⟨S262144, .f32⟩
  | .hbm, ⟨23, _⟩ => ⟨S524288x1, .i32⟩
  | .hbm, ⟨24, _⟩ => ⟨S262144, .f32⟩
  | .hbm, ⟨25, _⟩ => ⟨S_, .f32⟩
  | .hbm, ⟨26, _⟩ => ⟨S262144, .f32⟩
  | .hbm, ⟨27, _⟩ => ⟨S262144, .i1⟩
  | .hbm, ⟨28, _⟩ => ⟨S262144, .f32⟩
  | .hbm, ⟨29, _⟩ => ⟨S_, .f32⟩
  | .hbm, ⟨30, _⟩ => ⟨S262144, .f32⟩
  | .hbm, ⟨31, _⟩ => ⟨S262144, .f32⟩
  | .hbm, ⟨32, _⟩ => ⟨S_, .i32⟩
  | .hbm, ⟨33, _⟩ => ⟨S524288, .i32⟩
  | .hbm, ⟨34, _⟩ => ⟨S524288, .i1⟩
  | .hbm, ⟨35, _⟩ => ⟨S_, .i32⟩
  | .hbm, ⟨36, _⟩ => ⟨S524288, .i32⟩
  | .hbm, ⟨37, _⟩ => ⟨S524288, .i32⟩
  | .hbm, ⟨38, _⟩ => ⟨S524288, .i32⟩
  | .hbm, ⟨39, _⟩ => ⟨S524288x1, .i32⟩
  | .hbm, ⟨40, _⟩ => ⟨S524288, .f32⟩
  | .hbm, ⟨41, _⟩ => ⟨S_, .i32⟩
  | .hbm, ⟨42, _⟩ => ⟨S524288, .i32⟩
  | .hbm, ⟨43, _⟩ => ⟨S524288, .i1⟩
  | .hbm, ⟨44, _⟩ => ⟨S_, .i32⟩
  | .hbm, ⟨45, _⟩ => ⟨S524288, .i32⟩
  | .hbm, ⟨46, _⟩ => ⟨S524288, .i32⟩
  | .hbm, ⟨47, _⟩ => ⟨S524288, .i32⟩
  | .hbm, ⟨48, _⟩ => ⟨S524288x1, .i32⟩
  | .hbm, ⟨49, _⟩ => ⟨S524288, .f32⟩
  | .hbm, ⟨50, _⟩ => ⟨S524288, .f32⟩
  | .hbm, ⟨51, _⟩ => ⟨S262144x256, .f32⟩
  | .hbm, ⟨52, _⟩ => ⟨S_, .i32⟩
  | .hbm, ⟨53, _⟩ => ⟨S524288, .i32⟩
  | .hbm, ⟨54, _⟩ => ⟨S524288, .i1⟩
  | .hbm, ⟨55, _⟩ => ⟨S_, .i32⟩
  | .hbm, ⟨56, _⟩ => ⟨S524288, .i32⟩
  | .hbm, ⟨57, _⟩ => ⟨S524288, .i32⟩
  | .hbm, ⟨58, _⟩ => ⟨S524288, .i32⟩
  | .hbm, ⟨59, _⟩ => ⟨S524288x1, .i32⟩
  | .hbm, ⟨60, _⟩ => ⟨S524288x256, .f32⟩
  | .hbm, ⟨61, _⟩ => ⟨S524288x1, .f32⟩
  | .hbm, ⟨62, _⟩ => ⟨S524288x256, .f32⟩
  | .hbm, ⟨63, _⟩ => ⟨S524288x256, .f32⟩
  | .hbm, ⟨64, _⟩ => ⟨S_, .f32⟩
  | .hbm, ⟨65, _⟩ => ⟨S262144x256, .f32⟩
  | .hbm, ⟨66, _⟩ => ⟨S524288x1, .i32⟩
  | .hbm, ⟨67, _⟩ => ⟨S262144x256, .f32⟩
  | .hbm, ⟨68, _⟩ => ⟨S_, .i32⟩
  | .hbm, ⟨69, _⟩ => ⟨S262144, .i32⟩
  | .hbm, ⟨70, _⟩ => ⟨S262144, .i1⟩
  | .hbm, ⟨71, _⟩ => ⟨S_, .i32⟩
  | .hbm, ⟨72, _⟩ => ⟨S262144, .i32⟩
  | .hbm, ⟨73, _⟩ => ⟨S262144, .i32⟩
  | .hbm, ⟨74, _⟩ => ⟨S262144, .i32⟩
  | .hbm, ⟨75, _⟩ => ⟨S262144x1, .i32⟩
  | .hbm, ⟨76, _⟩ => ⟨S262144x256, .f32⟩
  | .hbm, ⟨77, _⟩ => ⟨S_, .i32⟩
  | .hbm, ⟨78, _⟩ => ⟨S262144, .i32⟩
  | .hbm, ⟨79, _⟩ => ⟨S262144, .i1⟩
  | .hbm, ⟨80, _⟩ => ⟨S_, .i32⟩
  | .hbm, ⟨81, _⟩ => ⟨S262144, .i32⟩
  | .hbm, ⟨82, _⟩ => ⟨S262144, .i32⟩
  | .hbm, ⟨83, _⟩ => ⟨S262144, .i32⟩
  | .hbm, ⟨84, _⟩ => ⟨S262144x1, .i32⟩
  | .hbm, ⟨85, _⟩ => ⟨S262144x256, .f32⟩
  | .hbm, ⟨86, _⟩ => ⟨S1x256, .f32⟩
  | .hbm, ⟨87, _⟩ => ⟨S262144x256, .f32⟩
  | .hbm, ⟨88, _⟩ => ⟨S262144x256, .f32⟩
  | .hbm, ⟨89, _⟩ => ⟨S_, .i32⟩
  | .hbm, ⟨90, _⟩ => ⟨S524288, .i32⟩
  | .hbm, ⟨91, _⟩ => ⟨S524288, .i1⟩
  | .hbm, ⟨92, _⟩ => ⟨S_, .i32⟩
  | .hbm, ⟨93, _⟩ => ⟨S524288, .i32⟩
  | .hbm, ⟨94, _⟩ => ⟨S524288, .i32⟩
  | .hbm, ⟨95, _⟩ => ⟨S524288, .i32⟩
  | .hbm, ⟨96, _⟩ => ⟨S524288x1, .i32⟩
  | .hbm, ⟨97, _⟩ => ⟨S524288x256, .f32⟩
  | .hbm, ⟨98, _⟩ => ⟨S524288x1, .f32⟩
  | .hbm, ⟨99, _⟩ => ⟨S524288x256, .f32⟩
  | .hbm, ⟨100, _⟩ => ⟨S524288x256, .f32⟩
  | .hbm, ⟨101, _⟩ => ⟨S_, .f32⟩
  | .hbm, ⟨102, _⟩ => ⟨S262144x256, .f32⟩
  | .hbm, ⟨103, _⟩ => ⟨S524288x1, .i32⟩
  | .hbm, ⟨104, _⟩ => ⟨S262144x256, .f32⟩
  | .hbm, ⟨105, _⟩ => ⟨S1x256, .f32⟩
  | .hbm, ⟨106, _⟩ => ⟨S1x128, .f32⟩
  | .hbm, ⟨107, _⟩ => ⟨S1x2, .f32⟩
  | .hbm, ⟨108, _⟩ => ⟨S262144x2, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S4096x256, .f32⟩
  | .local _ .vmem, ⟨4, _⟩ => ⟨S4096x256, .f32⟩
  | .local _ .vmem, ⟨5, _⟩ => ⟨S2048x256, .f32⟩
  | .local _ .vmem, ⟨6, _⟩ => ⟨S2048x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S4096x256, .f32⟩
  | .local _ .vmem, ⟨13, _⟩ => ⟨S4096x256, .f32⟩
  | .local _ .vmem, ⟨14, _⟩ => ⟨S256x256, .f32⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | .local _ .vmem, ⟨18, _⟩ => ⟨S4096x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S128x2, .f32⟩
  | .local _ .vmem, ⟨23, _⟩ => ⟨S1x2, .f32⟩
  | .local _ .vmem, ⟨24, _⟩ => ⟨S4096x2, .f32⟩
  | .local _ .vmem, ⟨25, _⟩ => ⟨S4096x2, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem6_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4096x2 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S262144_S524288_d0 : Shape.Concatenates [S262144, S262144] S524288 0
  bcast_S_S524288 : S_.BroadcastsInDim S524288 (![] : Fin 0 → Fin S524288.rank)
  bcast_S_S262144 : S_.BroadcastsInDim S262144 (![] : Fin 0 → Fin S262144.rank)
  bcast_S524288_S524288x1_0 : S524288.BroadcastsInDim S524288x1 (![0] : Fin 1 → Fin S524288x1.rank)
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S524288x1_S524288x256_0_1 : S524288x1.BroadcastsInDim S524288x256 (![0, 1] : Fin 2 → Fin S524288x256.rank)
  bcast_S_S262144x256 : S_.BroadcastsInDim S262144x256 (![] : Fin 0 → Fin S262144x256.rank)
  bcast_S262144_S262144x1_0 : S262144.BroadcastsInDim S262144x1 (![0] : Fin 1 → Fin S262144x1.rank)
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S4096x256_S4096x256 : S4096x256.ShapeCasts S4096x256
  shapeCasts_S128_S1x128 : S128.ShapeCasts S1x128
  shapeCasts_S2_S1x2 : S2.ShapeCasts S1x2
  broadcasts_S1x256_S4096x256 : S1x256.Broadcasts S4096x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  scatter_S262144_S524288x1_S524288_n_0_0_1_wf : ScatterDims.WF S262144 S524288x1 S524288 [] [0] [0] 1
  gather_S262144_S524288x1_S524288_n_0_n_n_0_1_1_wf : GatherDims.WF S262144 S524288x1 S524288 [] [0] [] [0] [] 1 ![1]
  dot_S4096x256_S256x256_S4096x256_1_0_0_1_n_n_wf : DotDims.WF S4096x256 S256x256 S4096x256 [1] [0] [0] [1] [] []
  gather_S262144x256_S524288x1_S524288x256_1_0_n_n_0_1_1256_wf : GatherDims.WF S262144x256 S524288x1 S524288x256 [1] [0] [] [0] [] 1 ![1, 256]
  scatter_S262144x256_S524288x1_S524288x256_1_0_0_1_wf : ScatterDims.WF S262144x256 S524288x1 S524288x256 [1] [0] [0] 1
  gather_S64x256_S262144x1_S262144x256_1_0_n_n_0_1_1256_wf : GatherDims.WF S64x256 S262144x1 S262144x256 [1] [0] [] [0] [] 1 ![1, 256]
  gather_S262144x256_S262144x1_S262144x256_1_0_n_n_0_1_1256_wf : GatherDims.WF S262144x256 S262144x1 S262144x256 [1] [0] [] [0] [] 1 ![1, 256]
  dot_S4096x256_S256x128_S4096x128_1_0_0_1_n_n_wf : DotDims.WF S4096x256 S256x128 S4096x128 [1] [0] [0] [1] [] []
  dot_S4096x128_S128x2_S4096x2_1_0_0_1_n_n_wf : DotDims.WF S4096x128 S128x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S262144x256.size a
  hwx0_2 : ∀ i : grid0.Coords, EltTy.bits .f32 = 32 ∨ (Rect.block (s := S262144x256) S4096x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S262144x256.size a
  hwx1_0 : ∀ i : grid1.Coords, EltTy.bits .f32 = 32 ∨ (Rect.block (s := S262144x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S262144x256.size a
  hwx1_2 : ∀ i : grid1.Coords, EltTy.bits .f32 = 32 ∨ (Rect.block (s := S262144x256) S2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S262144x256.size a
  hwx1_3 : ∀ i : grid1.Coords, EltTy.bits .f32 = 32 ∨ (Rect.block (s := S262144x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S262144x256.size a
  hwx2_0 : ∀ i : grid2.Coords, EltTy.bits .f32 = 32 ∨ (Rect.block (s := S262144x256) S4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S262144x256.size a
  hwx2_2 : ∀ i : grid2.Coords, EltTy.bits .f32 = 32 ∨ (Rect.block (s := S262144x256) S4096x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S262144x256.size a
  hwx3_0 : ∀ i : grid3.Coords, EltTy.bits .f32 = 32 ∨ (Rect.block (s := S262144x256) S4096x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x2.size a ≤ S128x2.size a
  hwx3_4 : ∀ i : grid3.Coords, EltTy.bits .f32 = 32 ∨ (Rect.block (s := S128x2) S128x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x2.size a ≤ S1x2.size a
  hwx3_5 : ∀ i : grid3.Coords, EltTy.bits .f32 = 32 ∨ (Rect.block (s := S1x2) S1x2.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4096x2.size a ≤ S262144x2.size a
  hwx3_6 : ∀ i : grid3.Coords, EltTy.bits .f32 = 32 ∨ (Rect.block (s := S262144x2) S4096x2.size (cc3_transform_6 i) (hinb3_6 i)).WholeWords (EltTy.packing .f32)

variable [Facts₀]

def scatter_S262144_S524288x1_S524288_n_0_0_1 : ScatterDims S262144 S524288x1 S524288 where
  updateWindowDims := []
  insertedWindowDims := [0]
  scatterDimsToOperandDims := [0]
  indexVectorDim := 1
  wf := scatter_S262144_S524288x1_S524288_n_0_0_1_wf
def gather_S262144_S524288x1_S524288_n_0_n_n_0_1_1 : GatherDims S262144 S524288x1 S524288 where
  offsetDims := []
  collapsedSliceDims := [0]
  operandBatchingDims := []
  startIndicesBatchingDims := []
  startIndexMap := [0]
  indexVectorDim := 1
  sliceSizes := ![1]
  wf := gather_S262144_S524288x1_S524288_n_0_n_n_0_1_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S262144x256_S524288x1_S524288x256_1_0_n_n_0_1_1256 : GatherDims S262144x256 S524288x1 S524288x256 where
  offsetDims := [1]
  collapsedSliceDims := [0]
  operandBatchingDims := []
  startIndicesBatchingDims := []
  startIndexMap := [0]
  indexVectorDim := 1
  sliceSizes := ![1, 256]
  wf := gather_S262144x256_S524288x1_S524288x256_1_0_n_n_0_1_1256_wf
def scatter_S262144x256_S524288x1_S524288x256_1_0_0_1 : ScatterDims S262144x256 S524288x1 S524288x256 where
  updateWindowDims := [1]
  insertedWindowDims := [0]
  scatterDimsToOperandDims := [0]
  indexVectorDim := 1
  wf := scatter_S262144x256_S524288x1_S524288x256_1_0_0_1_wf
def gather_S64x256_S262144x1_S262144x256_1_0_n_n_0_1_1256 : GatherDims S64x256 S262144x1 S262144x256 where
  offsetDims := [1]
  collapsedSliceDims := [0]
  operandBatchingDims := []
  startIndicesBatchingDims := []
  startIndexMap := [0]
  indexVectorDim := 1
  sliceSizes := ![1, 256]
  wf := gather_S64x256_S262144x1_S262144x256_1_0_n_n_0_1_1256_wf
def gather_S262144x256_S262144x1_S262144x256_1_0_n_n_0_1_1256 : GatherDims S262144x256 S262144x1 S262144x256 where
  offsetDims := [1]
  collapsedSliceDims := [0]
  operandBatchingDims := []
  startIndicesBatchingDims := []
  startIndexMap := [0]
  indexVectorDim := 1
  sliceSizes := ![1, 256]
  wf := gather_S262144x256_S262144x1_S262144x256_1_0_n_n_0_1_1256_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v60) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S4096x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S128x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S1x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v78) S4096x2.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S262144x256 : Shape := ⟨2, ![262144, 256]⟩
abbrev S2x262144 : Shape := ⟨2, ![2, 262144]⟩
abbrev S262144 : Shape := ⟨1, ![262144]⟩
abbrev S64x256 : Shape := ⟨2, ![64, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x262144 : Shape := ⟨2, ![1, 262144]⟩
abbrev S524288 : Shape := ⟨1, ![524288]⟩
abbrev S_ : Shape := ⟨0, ![]⟩
abbrev S524288x1 : Shape := ⟨2, ![524288, 1]⟩
abbrev S524288x256 : Shape := ⟨2, ![524288, 256]⟩
abbrev S1x256 : Shape := ⟨2, ![1, 256]⟩
abbrev S262144x1 : Shape := ⟨2, ![262144, 1]⟩
abbrev S262144x128 : Shape := ⟨2, ![262144, 128]⟩
abbrev S1x128 : Shape := ⟨2, ![1, 128]⟩
abbrev S262144x2 : Shape := ⟨2, ![262144, 2]⟩
abbrev S1x2 : Shape := ⟨2, ![1, 2]⟩

abbrev nBuf : Space → Nat
  | .hbm => 159
  | .vmem => 0
  | .smem => 0
  | _ => 0

abbrev hbmTy0_0 (i : Nat) : BufTy := match i % 128 with
  | 0 => ⟨S262144x256, .f32⟩
  | 1 => ⟨S2x262144, .i32⟩
  | 2 => ⟨S262144, .i32⟩
  | 3 => ⟨S64x256, .f32⟩
  | 4 => ⟨S256x256, .f32⟩
  | 5 => ⟨S256, .f32⟩
  | 6 => ⟨S256x256, .f32⟩
  | 7 => ⟨S256, .f32⟩
  | 8 => ⟨S256x128, .f32⟩
  | 9 => ⟨S128, .f32⟩
  | 10 => ⟨S128x2, .f32⟩
  | 11 => ⟨S2, .f32⟩
  | 12 => ⟨S1x262144, .i32⟩
  | 13 => ⟨S262144, .i32⟩
  | 14 => ⟨S1x262144, .i32⟩
  | 15 => ⟨S262144, .i32⟩
  | 16 => ⟨S262144, .i32⟩
  | 17 => ⟨S524288, .i32⟩
  | 18 => ⟨S524288, .i32⟩
  | 19 => ⟨S_, .f32⟩
  | 20 => ⟨S524288, .f32⟩
  | 21 => ⟨S_, .f32⟩
  | 22 => ⟨S262144, .f32⟩
  | 23 => ⟨S524288x1, .i32⟩
  | 24 => ⟨S262144, .f32⟩
  | 25 => ⟨S_, .f32⟩
  | 26 => ⟨S262144, .f32⟩
  | 27 => ⟨S262144, .i1⟩
  | 28 => ⟨S262144, .f32⟩
  | 29 => ⟨S_, .f32⟩
  | 30 => ⟨S262144, .f32⟩
  | 31 => ⟨S262144, .f32⟩
  | 32 => ⟨S_, .i32⟩
  | 33 => ⟨S524288, .i32⟩
  | 34 => ⟨S524288, .i1⟩
  | 35 => ⟨S_, .i32⟩
  | 36 => ⟨S524288, .i32⟩
  | 37 => ⟨S524288, .i32⟩
  | 38 => ⟨S524288, .i32⟩
  | 39 => ⟨S524288x1, .i32⟩
  | 40 => ⟨S524288, .f32⟩
  | 41 => ⟨S_, .i32⟩
  | 42 => ⟨S524288, .i32⟩
  | 43 => ⟨S524288, .i1⟩
  | 44 => ⟨S_, .i32⟩
  | 45 => ⟨S524288, .i32⟩
  | 46 => ⟨S524288, .i32⟩
  | 47 => ⟨S524288, .i32⟩
  | 48 => ⟨S524288x1, .i32⟩
  | 49 => ⟨S524288, .f32⟩
  | 50 => ⟨S524288, .f32⟩
  | 51 => ⟨S262144x256, .f32⟩
  | 52 => ⟨S_, .i32⟩
  | 53 => ⟨S524288, .i32⟩
  | 54 => ⟨S524288, .i1⟩
  | 55 => ⟨S_, .i32⟩
  | 56 => ⟨S524288, .i32⟩
  | 57 => ⟨S524288, .i32⟩
  | 58 => ⟨S524288, .i32⟩
  | 59 => ⟨S524288x1, .i32⟩
  | 60 => ⟨S524288x256, .f32⟩
  | 61 => ⟨S524288x1, .f32⟩
  | 62 => ⟨S524288x256, .f32⟩
  | 63 => ⟨S524288x256, .f32⟩
  | 64 => ⟨S_, .f32⟩
  | 65 => ⟨S262144x256, .f32⟩
  | 66 => ⟨S524288x1, .i32⟩
  | 67 => ⟨S262144x256, .f32⟩
  | 68 => ⟨S1x256, .f32⟩
  | 69 => ⟨S262144x256, .f32⟩
  | 70 => ⟨S262144x256, .f32⟩
  | 71 => ⟨S_, .f32⟩
  | 72 => ⟨S262144x256, .f32⟩
  | 73 => ⟨S262144x256, .f32⟩
  | 74 => ⟨S_, .i32⟩
  | 75 => ⟨S262144, .i32⟩
  | 76 => ⟨S262144, .i1⟩
  | 77 => ⟨S_, .i32⟩
  | 78 => ⟨S262144, .i32⟩
  | 79 => ⟨S262144, .i32⟩
  | 80 => ⟨S262144, .i32⟩
  | 81 => ⟨S262144x1, .i32⟩
  | 82 => ⟨S262144x256, .f32⟩
  | 83 => ⟨S_, .i32⟩
  | 84 => ⟨S262144, .i32⟩
  | 85 => ⟨S262144, .i1⟩
  | 86 => ⟨S_, .i32⟩
  | 87 => ⟨S262144, .i32⟩
  | 88 => ⟨S262144, .i32⟩
  | 89 => ⟨S262144, .i32⟩
  | 90 => ⟨S262144x1, .i32⟩
  | 91 => ⟨S262144x256, .f32⟩
  | 92 => ⟨S262144x256, .f32⟩
  | 93 => ⟨S262144, .i32⟩
  | 94 => ⟨S524288, .i32⟩
  | 95 => ⟨S524288, .i32⟩
  | 96 => ⟨S_, .f32⟩
  | 97 => ⟨S524288, .f32⟩
  | 98 => ⟨S_, .f32⟩
  | 99 => ⟨S262144, .f32⟩
  | 100 => ⟨S524288x1, .i32⟩
  | 101 => ⟨S262144, .f32⟩
  | 102 => ⟨S_, .f32⟩
  | 103 => ⟨S262144, .f32⟩
  | 104 => ⟨S262144, .i1⟩
  | 105 => ⟨S262144, .f32⟩
  | 106 => ⟨S_, .f32⟩
  | 107 => ⟨S262144, .f32⟩
  | 108 => ⟨S262144, .f32⟩
  | 109 => ⟨S_, .i32⟩
  | 110 => ⟨S524288, .i32⟩
  | 111 => ⟨S524288, .i1⟩
  | 112 => ⟨S_, .i32⟩
  | 113 => ⟨S524288, .i32⟩
  | 114 => ⟨S524288, .i32⟩
  | 115 => ⟨S524288, .i32⟩
  | 116 => ⟨S524288x1, .i32⟩
  | 117 => ⟨S524288, .f32⟩
  | 118 => ⟨S_, .i32⟩
  | 119 => ⟨S524288, .i32⟩
  | 120 => ⟨S524288, .i1⟩
  | 121 => ⟨S_, .i32⟩
  | 122 => ⟨S524288, .i32⟩
  | 123 => ⟨S524288, .i32⟩
  | 124 => ⟨S524288, .i32⟩
  | 125 => ⟨S524288x1, .i32⟩
  | 126 => ⟨S524288, .f32⟩
  | 127 => ⟨S524288, .f32⟩
  | _ => ⟨S262144x256, .f32⟩

abbrev hbmTy0_1 (i : Nat) : BufTy := match i % 128 with
  | 0 => ⟨S262144x256, .f32⟩
  | 1 => ⟨S_, .i32⟩
  | 2 => ⟨S524288, .i32⟩
  | 3 => ⟨S524288, .i1⟩
  | 4 => ⟨S_, .i32⟩
  | 5 => ⟨S524288, .i32⟩
  | 6 => ⟨S524288, .i32⟩
  | 7 => ⟨S524288, .i32⟩
  | 8 => ⟨S524288x1, .i32⟩
  | 9 => ⟨S524288x256, .f32⟩
  | 10 => ⟨S524288x1, .f32⟩
  | 11 => ⟨S524288x256, .f32⟩
  | 12 => ⟨S524288x256, .f32⟩
  | 13 => ⟨S_, .f32⟩
  | 14 => ⟨S262144x256, .f32⟩
  | 15 => ⟨S524288x1, .i32⟩
  | 16 => ⟨S262144x256, .f32⟩
  | 17 => ⟨S1x256, .f32⟩
  | 18 => ⟨S262144x256, .f32⟩
  | 19 => ⟨S262144x256, .f32⟩
  | 20 => ⟨S262144x128, .f32⟩
  | 21 => ⟨S1x128, .f32⟩
  | 22 => ⟨S262144x128, .f32⟩
  | 23 => ⟨S262144x128, .f32⟩
  | 24 => ⟨S_, .f32⟩
  | 25 => ⟨S262144x128, .f32⟩
  | 26 => ⟨S262144x128, .f32⟩
  | 27 => ⟨S262144x2, .f32⟩
  | 28 => ⟨S1x2, .f32⟩
  | 29 => ⟨S262144x2, .f32⟩
  | 30 => ⟨S262144x2, .f32⟩
  | _ => ⟨S262144x256, .f32⟩

abbrev hbmTy (i : Nat) : BufTy := match i / 128 with
  | 0 => hbmTy0_0 i
  | 1 => hbmTy0_1 i
  | _ => ⟨S262144x256, .f32⟩

abbrev bufTy : (tb : Table) → Fin (tcTables nBuf tb) → BufTy
  | .hbm, ⟨i, _⟩ => hbmTy i
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_16 : Ref sig .tc := ⟨.hbm, 106, rfl⟩
abbrev main_v74 : Ref sig .tc := ⟨.hbm, 107, rfl⟩
abbrev main_v75 : Ref sig .tc := ⟨.hbm, 108, rfl⟩
abbrev main_c_17 : Ref sig .tc := ⟨.hbm, 109, rfl⟩
abbrev main_v76 : Ref sig .tc := ⟨.hbm, 110, rfl⟩
abbrev main_v77 : Ref sig .tc := ⟨.hbm, 111, rfl⟩
abbrev main_c_18 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_19 : Ref sig .tc := ⟨.hbm, 118, rfl⟩
abbrev main_v83 : Ref sig .tc := ⟨.hbm, 119, rfl⟩
abbrev main_v84 : Ref sig .tc := ⟨.hbm, 120, rfl⟩
abbrev main_c_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_21 : Ref sig .tc := ⟨.hbm, 129, rfl⟩
abbrev main_v92 : Ref sig .tc := ⟨.hbm, 130, rfl⟩
abbrev main_v93 : Ref sig .tc := ⟨.hbm, 131, rfl⟩
abbrev main_c_22 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_23 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_call3_cst : Ref sig .tc := ⟨.hbm, 152, rfl⟩
abbrev main_call3_v0 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S262144_S524288_d0 : Shape.Concatenates [S262144, S262144] S524288 0
  bcast_S_S524288 : S_.BroadcastsInDim S524288 (![] : Fin 0 → Fin S524288.rank)
  bcast_S_S262144 : S_.BroadcastsInDim S262144 (![] : Fin 0 → Fin S262144.rank)
  bcast_S524288_S524288x1_0 : S524288.BroadcastsInDim S524288x1 (![0] : Fin 1 → Fin S524288x1.rank)
  bcast_S524288x1_S524288x256_0_1 : S524288x1.BroadcastsInDim S524288x256 (![0, 1] : Fin 2 → Fin S524288x256.rank)
  bcast_S_S262144x256 : S_.BroadcastsInDim S262144x256 (![] : Fin 0 → Fin S262144x256.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S262144_S262144x1_0 : S262144.BroadcastsInDim S262144x1 (![0] : Fin 1 → Fin S262144x1.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  scatter_S262144_S524288x1_S524288_n_0_0_1_wf : ScatterDims.WF S262144 S524288x1 S524288 [] [0] [0] 1
  gather_S262144_S524288x1_S524288_n_0_n_n_0_1_1_wf : GatherDims.WF S262144 S524288x1 S524288 [] [0] [] [0] [] 1 ![1]
  dot_S262144x256_S256x256_S262144x256_1_0_0_1_n_n_wf : DotDims.WF S262144x256 S256x256 S262144x256 [1] [0] [0] [1] [] []
  gather_S262144x256_S524288x1_S524288x256_1_0_n_n_0_1_1256_wf : GatherDims.WF S262144x256 S524288x1 S524288x256 [1] [0] [] [0] [] 1 ![1, 256]
  scatter_S262144x256_S524288x1_S524288x256_1_0_0_1_wf : ScatterDims.WF S262144x256 S524288x1 S524288x256 [1] [0] [0] 1
  gather_S64x256_S262144x1_S262144x256_1_0_n_n_0_1_1256_wf : GatherDims.WF S64x256 S262144x1 S262144x256 [1] [0] [] [0] [] 1 ![1, 256]
  gather_S262144x256_S262144x1_S262144x256_1_0_n_n_0_1_1256_wf : GatherDims.WF S262144x256 S262144x1 S262144x256 [1] [0] [] [0] [] 1 ![1, 256]
  dot_S262144x256_S256x128_S262144x128_1_0_0_1_n_n_wf : DotDims.WF S262144x256 S256x128 S262144x128 [1] [0] [0] [1] [] []
  dot_S262144x128_S128x2_S262144x2_1_0_0_1_n_n_wf : DotDims.WF S262144x128 S128x2 S262144x2 [1] [0] [0] [1] [] []

variable [Facts₀]

def scatter_S262144_S524288x1_S524288_n_0_0_1 : ScatterDims S262144 S524288x1 S524288 where
  updateWindowDims := []
  insertedWindowDims := [0]
  scatterDimsToOperandDims := [0]
  indexVectorDim := 1
  wf := scatter_S262144_S524288x1_S524288_n_0_0_1_wf
def gather_S262144_S524288x1_S524288_n_0_n_n_0_1_1 : GatherDims S262144 S524288x1 S524288 where
  offsetDims := []
  collapsedSliceDims := [0]
  operandBatchingDims := []
  startIndicesBatchingDims := []
  startIndexMap := [0]
  indexVectorDim := 1
  sliceSizes := ![1]
  wf := gather_S262144_S524288x1_S524288_n_0_n_n_0_1_1_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def gather_S262144x256_S524288x1_S524288x256_1_0_n_n_0_1_1256 : GatherDims S262144x256 S524288x1 S524288x256 where
  offsetDims := [1]
  collapsedSliceDims := [0]
  operandBatchingDims := []
  startIndicesBatchingDims := []
  startIndexMap := [0]
  indexVectorDim := 1
  sliceSizes := ![1, 256]
  wf := gather_S262144x256_S524288x1_S524288x256_1_0_n_n_0_1_1256_wf
def scatter_S262144x256_S524288x1_S524288x256_1_0_0_1 : ScatterDims S262144x256 S524288x1 S524288x256 where
  updateWindowDims := [1]
  insertedWindowDims := [0]
  scatterDimsToOperandDims := [0]
  indexVectorDim := 1
  wf := scatter_S262144x256_S524288x1_S524288x256_1_0_0_1_wf
def gather_S64x256_S262144x1_S262144x256_1_0_n_n_0_1_1256 : GatherDims S64x256 S262144x1 S262144x256 where
  offsetDims := [1]
  collapsedSliceDims := [0]
  operandBatchingDims := []
  startIndicesBatchingDims := []
  startIndexMap := [0]
  indexVectorDim := 1
  sliceSizes := ![1, 256]
  wf := gather_S64x256_S262144x1_S262144x256_1_0_n_n_0_1_1256_wf
def gather_S262144x256_S262144x1_S262144x256_1_0_n_n_0_1_1256 : GatherDims S262144x256 S262144x1 S262144x256 where
  offsetDims := [1]
  collapsedSliceDims := [0]
  operandBatchingDims := []
  startIndicesBatchingDims := []
  startIndexMap := [0]
  indexVectorDim := 1
  sliceSizes := ![1, 256]
  wf := gather_S262144x256_S262144x1_S262144x256_1_0_n_n_0_1_1256_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x2_S262144x2_1_0_0_1_n_n : DotDims S262144x128 S128x2 S262144x2 where
  lhsContracting := [1]
  rhsContracting := [0]
  lhsNonContracting := [0]
  rhsNonContracting := [1]
  lhsBatch := []
  rhsBatch := []
  wf := dot_S262144x128_S128x2_S262144x2_1_0_0_1_n_n_wf

class Facts : Prop extends Facts₀ where

variable [Facts]
-- ==== Proof.GraphNet.lean ====
/-
  The network both programs compute, as ONE function of the twelve argument arrays, written once in the host
  vocabulary.  A graph on 262144 nodes is given by an edge list (row 0 the sources, row 1 the targets); every node gets
  a self loop, so there are 524288 messages.  `deg` counts the messages arriving at a node, `dinv = deg^(-1/2)` where
  `deg > 0` (else 0), and a message from `s` to `d` weighs `dinv s * dinv d`.  One propagation step `aggregate h` sends
  row `s` of `h`, scaled by the weight, to row `d` and sums what arrives.  The network is
      h1  = relu (aggregate (x · W1) + b1) + rel_emb[edge_type][target]
      h2  = aggregate (h1 · W2)
      out = relu ((h2 + b2) · cW1 + cb1) · cW2 + cb2 .
  The dense pieces (`dense`, `hidden`, `classify`) take their bias as a ROW, a [1, n] array: the two programs build that
  row differently (a reshape, a broadcast), and Rows.lean shows the two rows equal.
-/
import proofs.«100892_j70695161692530_1_alg».proof.ReferenceIdeal
import proofs.«100892_j70695161692530_1_alg».proof.Proof.Gen.ReferenceIdeal

noncomputable section

namespace Cert.GraphNet

open Idealize.ShloMosaic Cert.ReferenceIdeal Cert.ReferenceIdeal.Gen

variable {F : FTy → Type} [FloatOps F]

/-- Row `0` of the edge list: each edge's source node. -/
def sources (ei : Vec F S2x262144 .i32) : Vec F S262144 .i32 :=
  shapeCast _ (extractStridedSlice S1x262144 ![0, 0] ei slices_S2x262144_S1x262144_0_0) shapeCasts_S1x262144_S262144

/-- Row `1` of the edge list: each edge's target node. -/
def targets (ei : Vec F S2x262144 .i32) : Vec F S262144 .i32 :=
  shapeCast _ (extractStridedSlice S1x262144 ![1, 0] ei slices_S2x262144_S1x262144_1_0) shapeCasts_S1x262144_S262144

/-- The edges' ends followed by the self loops' (node `k` to node `k`). -/
def withLoops (v : Vec F S262144 .i32) : Vec F S524288 .i32 :=
  concatenate S524288 0 [⟨S262144, v⟩, ⟨S262144, (iotaInDim S262144 32 0)⟩] concatenates_S262144_S262144_S524288_d0

/-- A signed node number counted from the end when negative, as an index column. -/
def column (v : Vec F S524288 .i32) : Vec F S524288x1 .i32 :=
  broadcastInDim S524288x1 ![0] bcast_S524288_S524288x1_0 (select (cmpi .slt v (broadcastInDim S524288 ![] bcast_S_S524288 (constantI S_ 32 0#32))) (addi v (broadcastInDim S524288 ![] bcast_S_S524288 (constantI S_ 32 262144#32))) v)

/-- How many messages arrive at each node. -/
def degree (d : Vec F S524288 .i32) : Vec F S262144 .f32 :=
  Host.scatterAdd scatter_S262144_S524288x1_S524288_n_0_0_1 (broadcastInDim S262144 ![] bcast_S_S262144 (constant S_ .f32 0x00000000#32)) (broadcastInDim S524288x1 ![0] bcast_S524288_S524288x1_0 d) (broadcastInDim S524288 ![] bcast_S_S524288 (constant S_ .f32 0x3F800000#32))

/-- `deg^(-1/2)` where the degree is positive, `0` elsewhere. -/
def invSqrtDegree (d : Vec F S524288 .i32) : Vec F S262144 .f32 :=
  select (cmpf .ogt (degree d) (broadcastInDim S262144 ![] bcast_S_S262144 (constant S_ .f32 0x00000000#32))) (Host.rsqrt (degree d)) (broadcastInDim S262144 ![] bcast_S_S262144 (constant S_ .f32 0x00000000#32))

/-- Each message's weight: the product of its two ends' `deg^(-1/2)`. -/
def weights (ei : Vec F S2x262144 .i32) : Vec F S524288 .f32 :=
  mulf (Host.gather gather_S262144_S524288x1_S524288_n_0_n_n_0_1_1 (invSqrtDegree (withLoops (targets ei))) (column (withLoops (sources ei)))) (Host.gather gather_S262144_S524288x1_S524288_n_0_n_n_0_1_1 (invSqrtDegree (withLoops (targets ei))) (column (withLoops (targets ei))))

/-- One propagation step: row `s` of `h` times the message's weight, summed into row `d`. -/
def aggregate (ei : Vec F S2x262144 .i32) (h : Vec F S262144x256 .f32) : Vec F S262144x256 .f32 :=
  Host.scatterAdd scatter_S262144x256_S524288x1_S524288x256_1_0_0_1 (broadcastInDim S262144x256 ![] bcast_S_S262144x256 (constant S_ .f32 0x00000000#32)) (broadcastInDim S524288x1 ![0] bcast_S524288_S524288x1_0 (withLoops (targets ei))) (mulf (Host.gather gather_S262144x256_S524288x1_S524288x256_1_0_n_n_0_1_1256 h (column (withLoops (sources ei)))) (broadcastInDim S524288x256 ![0, 1] bcast_S524288x1_S524288x256_0_1 (broadcastInDim S524288x1 ![0] bcast_S524288_S524288x1_0 (weights ei))))

/-- Row `k`: the relation embedding of the type of edge number `targets k` (the source network indexes the edge embeddings by target node; with as many edges as nodes that is well formed). -/
def edgeEmbedding (ei : Vec F S2x262144 .i32) (et : Vec F S262144 .i32) (rel : Vec F S64x256 .f32) : Vec F S262144x256 .f32 :=
  Host.gather gather_S262144x256_S262144x1_S262144x256_1_0_n_n_0_1_1256 (Host.gather gather_S64x256_S262144x1_S262144x256_1_0_n_n_0_1_1256 rel (broadcastInDim S262144x1 ![0] bcast_S262144_S262144x1_0 (select (cmpi .slt et (broadcastInDim S262144 ![] bcast_S_S262144 (constantI S_ 32 0#32))) (addi et (broadcastInDim S262144 ![] bcast_S_S262144 (constantI S_ 32 64#32))) et))) (broadcastInDim S262144x1 ![0] bcast_S262144_S262144x1_0 (select (cmpi .slt (targets ei) (broadcastInDim S262144 ![] bcast_S_S262144 (constantI S_ 32 0#32))) (addi (targets ei) (broadcastInDim S262144 ![] bcast_S_S262144 (constantI S_ 32 262144#32))) (targets ei)))

/-- A 256-wide linear map of every node's row: `x · W`. -/
def dense (x : Vec F S262144x256 .f32) (w : Vec F S256x256 .f32) : Vec F S262144x256 .f32 :=
  Host.dotGeneral dot_S262144x256_S256x256_S262144x256_1_0_0_1_n_n none x w

/-- The first layer's output from what was aggregated: `relu (a + b) + e`, the bias a row. -/
def hidden (a : Vec F S262144x256 .f32) (brow : Vec F S1x256 .f32) (e : Vec F S262144x256 .f32) : Vec F S262144x256 .f32 :=
  addf (maximumf (addf a (broadcastInDim S262144x256 ![0, 1] bcast_S1x256_S262144x256_0_1 brow)) (broadcastInDim S262144x256 ![] bcast_S_S262144x256 (constant S_ .f32 0x00000000#32))) e

/-- The classifier on what the second step aggregated: `relu ((a + b2) · cW1 + cb1) · cW2 + cb2`, the biases rows. -/
def classify (a : Vec F S262144x256 .f32) (b2row : Vec F S1x256 .f32) (cW1 : Vec F S256x128 .f32) (cb1row : Vec F S1x128 .f32)
    (cW2 : Vec F S128x2 .f32) (cb2row : Vec F S1x2 .f32) : Vec F S262144x2 .f32 :=
  addf (Host.dotGeneral dot_S262144x128_S128x2_S262144x2_1_0_0_1_n_n none (maximumf (addf (Host.dotGeneral dot_S262144x256_S256x128_S262144x128_1_0_0_1_n_n none (addf a (broadcastInDim S262144x256 ![0, 1] bcast_S1x256_S262144x256_0_1 b2row)) cW1) (broadcastInDim S262144x128 ![0, 1] bcast_S1x128_S262144x128_0_1 cb1row)) (broadcastInDim S262144x128 ![] bcast_S_S262144x128 (constant S_ .f32 0x00000000#32))) cW2) (broadcastInDim S262144x2 ![0, 1] bcast_S1x2_S262144x2_0_1 cb2row)

/-- A bias vector as a row. -/
def row256 (b : Vec F S256 .f32) : Vec F S1x256 .f32 := broadcastInDim S1x256 ![1] bcast_S256_S1x256_1 b
def row128 (b : Vec F S128 .f32) : Vec F S1x128 .f32 := broadcastInDim S1x128 ![1] bcast_S128_S1x128_1 b
def row2 (b : Vec F S2 .f32) : Vec F S1x2 .f32 := broadcastInDim S1x2 ![1] bcast_S2_S1x2_1 b

/-- The whole network. -/
def out (x : Vec F S262144x256 .f32) (ei : Vec F S2x262144 .i32) (et : Vec F S262144 .i32) (rel : Vec F S64x256 .f32)
    (W1 : Vec F S256x256 .f32) (b1 : Vec F S256 .f32) (W2 : Vec F S256x256 .f32) (b2 : Vec F S256 .f32)
    (cW1 : Vec F S256x128 .f32) (cb1 : Vec F S128 .f32) (cW2 : Vec F S128x2 .f32) (cb2 : Vec F S2 .f32) : Vec F S262144x2 .f32 :=
  classify (aggregate ei (dense (hidden (aggregate ei (dense x W1)) (row256 b1) (edgeEmbedding ei et rel)) W2))
    (row256 b2) cW1 (row128 cb1) cW2 (row2 cb2)

/-! ## The same pieces from named operands

The weights, the propagation step and the embedding lookup with the messages' ends, the inverse root degrees and the
weights as operands of their own — what one stretch of host operations computes from arrays an earlier stretch left. -/

/-- Each message's weight from the nodes' `deg^(-1/2)` and the messages' two ends. -/
def weightsFrom (dinv : Vec F S262144 .f32) (s d : Vec F S524288 .i32) : Vec F S524288 .f32 :=
  mulf (Host.gather gather_S262144_S524288x1_S524288_n_0_n_n_0_1_1 dinv (column s)) (Host.gather gather_S262144_S524288x1_S524288_n_0_n_n_0_1_1 dinv (column d))

theorem weights_eq (ei : Vec F S2x262144 .i32) :
    weights ei = weightsFrom (invSqrtDegree (withLoops (targets ei))) (withLoops (sources ei)) (withLoops (targets ei)) := rfl

/-- One propagation step from the messages' ends and weights. -/
def aggregateFrom (d s : Vec F S524288 .i32) (w : Vec F S524288 .f32) (h : Vec F S262144x256 .f32) : Vec F S262144x256 .f32 :=
  Host.scatterAdd scatter_S262144x256_S524288x1_S524288x256_1_0_0_1 (broadcastInDim S262144x256 ![] bcast_S_S262144x256 (constant S_ .f32 0x00000000#32)) (broadcastInDim S524288x1 ![0] bcast_S524288_S524288x1_0 d) (mulf (Host.gather gather_S262144x256_S524288x1_S524288x256_1_0_n_n_0_1_1256 h (column s)) (broadcastInDim S524288x256 ![0, 1] bcast_S524288x1_S524288x256_0_1 (broadcastInDim S524288x1 ![0] bcast_S524288_S524288x1_0 w)))

theorem aggregate_eq (ei : Vec F S2x262144 .i32) (h : Vec F S262144x256 .f32) :
    aggregate ei h = aggregateFrom (withLoops (targets ei)) (withLoops (sources ei)) (weights ei) h := rfl

/-- The relation embeddings looked up, from the edges' targets. -/
def edgeEmbeddingFrom (dst et : Vec F S262144 .i32) (rel : Vec F S64x256 .f32) : Vec F S262144x256 .f32 :=
  Host.gather gather_S262144x256_S262144x1_S262144x256_1_0_n_n_0_1_1256 (Host.gather gather_S64x256_S262144x1_S262144x256_1_0_n_n_0_1_1256 rel (broadcastInDim S262144x1 ![0] bcast_S262144_S262144x1_0 (select (cmpi .slt et (broadcastInDim S262144 ![] bcast_S_S262144 (constantI S_ 32 0#32))) (addi et (broadcastInDim S262144 ![] bcast_S_S262144 (constantI S_ 32 64#32))) et))) (broadcastInDim S262144x1 ![0] bcast_S262144_S262144x1_0 (select (cmpi .slt dst (broadcastInDim S262144 ![] bcast_S_S262144 (constantI S_ 32 0#32))) (addi dst (broadcastInDim S262144 ![] bcast_S_S262144 (constantI S_ 32 262144#32))) dst))

theorem edgeEmbedding_eq (ei : Vec F S2x262144 .i32) (et : Vec F S262144 .i32) (rel : Vec F S64x256 .f32) :
    edgeEmbedding ei et rel = edgeEmbeddingFrom (targets ei) et rel := rfl

end Cert.GraphNet

end
-- ==== Proof.RefNet.lean ====
/-
  The reference program computes the network: its run's composed term of the argument arrays, once the network's
  named pieces are unfolded, is that very term — the reference applies the propagation step twice, each time
  recomputing the degrees and the weights from the edge list, which is what `aggregate` does.
-/
import proofs.«100892_j70695161692530_1_alg».proof.Proof.RefRun
import proofs.«100892_j70695161692530_1_alg».proof.Proof.GraphNet

set_option maxRecDepth 16384

noncomputable section

namespace Cert.ReferenceIdeal.Net

open Idealize.ShloMosaic Idealize.ShloMosaic.TcCoe Idealize.SL.Sem Cert.ReferenceIdeal Cert.ReferenceIdeal.Gen

variable {F : FTy → Type} [FloatOps F]

/-- The reference's result is the network of its argument arrays. -/
theorem result_eq (m : (ℓ : Loc nD τ sig) → Buf (Elt F) ℓ) (c : Dev nD) :
    Cert.ReferenceIdeal.ValueP.res_main_v116 m c
      = Cert.GraphNet.out (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) := by
  unfold Cert.ReferenceIdeal.ValueP.res_main_v116 Cert.GraphNet.out Cert.GraphNet.classify Cert.GraphNet.aggregate Cert.GraphNet.dense
    Cert.GraphNet.hidden Cert.GraphNet.edgeEmbedding Cert.GraphNet.weights Cert.GraphNet.invSqrtDegree Cert.GraphNet.degree
    Cert.GraphNet.column Cert.GraphNet.withLoops Cert.GraphNet.sources Cert.GraphNet.targets Cert.GraphNet.row256
    Cert.GraphNet.row128 Cert.GraphNet.row2
  rfl

end Cert.ReferenceIdeal.Net

end
-- ==== Proof.KernelRun.lean ====
/-
  The idealized kernel program's run with EVERY buffer that outlives a region named: every weakly fair execution
  of @main ends, nothing faulting, and each unscoped buffer `b` of core `c` then holds `W9 m ρ c b` — the launch
  memory folded through @main's nine segments (five stretches of host operations, each the fold of its operations;
  four kernel regions, each leaving its arrays at what its write-backs leave and every other buffer as entered).
  The frame certificate runs the same segments and keeps, of this, the argument arrays only; the value proof needs
  the result array as well, so the run is stated here once with the whole last boundary in its post.
-/
import proofs.«100892_j70695161692530_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with every unscoped buffer at the last
    boundary's contents `W9`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Whole

end
-- ==== Proof.Fold.lean ====
/-
  The idealized kernel program's result array, folded back through @main to the launch memory.  @main is nine
  segments: host operations that build the edge ends with self loops and the message weights; the first dense
  region (x · W1); host operations that propagate its output along the edges, look the relation embeddings up and
  reshape the bias; the pointwise region (relu (· + b1) + embedding) and the second dense region (· W2); host
  operations that propagate again and reshape three biases; the classifier region.  Each boundary's contents are the
  previous boundary's with the segment's results rewritten, so the result array is read segment by segment: a host
  stretch by its operations' results, a region's output by that region's value lemma (taken here as a hypothesis,
  one per region, proved in its own module), every other buffer by "not written here".  What comes out is the
  network `Cert.GraphNet.out` of the twelve argument arrays.
-/
import proofs.«100892_j70695161692530_1_alg».proof.Proof.Gen.KernelIdeal.Frame
import proofs.«100892_j70695161692530_1_alg».proof.Proof.GraphNet
import Idealize.ShloMosaic.Lib.StableHlo.Run
import Idealize.ShloMosaic.PureOps.Ideal

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-! ## Before the first region: the edge ends, the weights, the arguments -/

/-! ## Each stretch of host operations, from ANY contents `W`

What a stretch leaves in the buffers later segments read, as the network's pieces of what it found (`W`) in its
operands' buffers; and the buffers it does not write, kept. -/

section Stretches

variable (W : Valuation τ sig (Elt Ideal))

/-! ### The first stretch: the edge ends with self loops, the degrees' comparison and inverse root -/

set_option maxHeartbeats 400000 in
theorem ends_v5 : StableHlo.after hostOps0 W (Proc.devRef .tc main_v5) = Cert.GraphNet.withLoops (F := Ideal) (Cert.GraphNet.sources (F := Ideal) (W (Proc.devRef .tc main_arg1))) := by
  first | after_results_simp | after_results
  all_goals rfl

set_option maxHeartbeats 400000 in
theorem ends_v6 : StableHlo.after hostOps0 W (Proc.devRef .tc main_v6) = Cert.GraphNet.withLoops (F := Ideal) (Cert.GraphNet.targets (F := Ideal) (W (Proc.devRef .tc main_arg1))) := by
  first | after_results_simp | after_results
  all_goals rfl

set_option maxHeartbeats 400000 in
theorem ends_v3 : StableHlo.after hostOps0 W (Proc.devRef .tc main_v3) = Cert.GraphNet.targets (F := Ideal) (W (Proc.devRef .tc main_arg1)) := by
  first | after_results_simp | after_results
  all_goals rfl

set_option maxHeartbeats 400000 in
theorem ends_v12 : StableHlo.after hostOps0 W (Proc.devRef .tc main_v12) = cmpf (F := Ideal) .ogt (Cert.GraphNet.degree (F := Ideal) (Cert.GraphNet.withLoops (F := Ideal) (Cert.GraphNet.targets (F := Ideal) (W (Proc.devRef .tc main_arg1))))) (broadcastInDim Cert.ReferenceIdeal.S262144 ![] Cert.ReferenceIdeal.Gen.bcast_S_S262144 (constant (F := Ideal) Cert.ReferenceIdeal.S_ .f32 0x00000000#32)) := by
  first | after_results_simp | after_results
  all_goals rfl

set_option maxHeartbeats 400000 in
theorem ends_v13 : StableHlo.after hostOps0 W (Proc.devRef .tc main_v13) = Host.rsqrt (F := Ideal) (φ := .f32) (Cert.GraphNet.degree (F := Ideal) (Cert.GraphNet.withLoops (F := Ideal) (Cert.GraphNet.targets (F := Ideal) (W (Proc.devRef .tc main_arg1))))) := by
  first | after_results_simp | after_results
  all_goals rfl

set_option maxHeartbeats 400000 in
theorem ends_v14 : StableHlo.after hostOps0 W (Proc.devRef .tc main_v14) = (broadcastInDim Cert.ReferenceIdeal.S262144 ![] Cert.ReferenceIdeal.Gen.bcast_S_S262144 (constant (F := Ideal) Cert.ReferenceIdeal.S_ .f32 0x00000000#32)) := by
  first | after_results_simp | after_results
  all_goals rfl

set_option maxHeartbeats 400000 in
theorem ends_keeps_arg0 : StableHlo.after hostOps0 W (Proc.devRef .tc main_arg0) = (W (Proc.devRef .tc main_arg0)) := by
  first | after_results_simp | after_results
  all_goals rfl

set_option maxHeartbeats 400000 in
theorem ends_keeps_arg2 : StableHlo.after hostOps0 W (Proc.devRef .tc main_arg2) = (W (Proc.devRef .tc main_arg2)) := by
  first | after_results_simp | after_results
  all_goals rfl

set_option maxHeartbeats 400000 in
theorem ends_keeps_arg3 : StableHlo.after hostOps0 W (Proc.devRef .tc main_arg3) = (W (Proc.devRef .tc main_arg3)) := by
  first | after_results_simp | after_results
  all_goals rfl

set_option maxHeartbeats 400000 in
theorem ends_keeps_arg4 : StableHlo.after hostOps0 W (Proc.devRef .tc main_arg4) = (W (Proc.devRef .tc main_arg4)) := by
  first | after_results_simp | after_results
  all_goals rfl

set_option maxHeartbeats 400000 in
theorem ends_keeps_arg5 : StableHlo.after hostOps0 W (Proc.devRef .tc main_arg5) = (W (Proc.devRef .tc main_arg5)) := by
  first | after_results_simp | after_results
  all_goals rfl

set_option maxHeartbeats 400000 in
theorem ends_keeps_arg6 : StableHlo.after hostOps0 W (Proc.devRef .tc main_arg6) = (W (Proc.devRef .tc main_arg6)) := by
  first | after_results_simp | after_results
  all_goals rfl

set_option maxHeartbeats 400000 in
theorem ends_keeps_arg7 : StableHlo.after hostOps0 W (Proc.devRef .tc main_arg7) = (W (Proc.devRef .tc main_arg7)) := by
  first | after_results_simp | after_results
  all_goals rfl

set_option maxHeartbeats 400000 in
theorem ends_keeps_arg8 : StableHlo.after hostOps0 W (Proc.devRef .tc main_arg8) = (W (Proc.devRef .tc main_arg8)) := by
  first | after_results_simp | after_results
  all_goals rfl

set_option maxHeartbeats 400000 in
theorem ends_keeps_arg9 : StableHlo.after hostOps0 W (Proc.devRef .tc main_arg9) = (W (Proc.devRef .tc main_arg9)) := by
  first | after_results_simp | after_results
  all_goals rfl

set_option maxHeartbeats 400000 in
theorem ends_keeps_arg10 : StableHlo.after hostOps0 W (Proc.devRef .tc main_arg10) = (W (Proc.devRef .tc main_arg10)) := by
  first | after_results_simp | after_results
  all_goals rfl

set_option maxHeartbeats 400000 in
theorem ends_keeps_arg11 : StableHlo.after hostOps0 W (Proc.devRef .tc main_arg11) = (W (Proc.devRef .tc main_arg11)) := by
  first | after_results_simp | after_results
  all_goals rfl

/-! ### The select of the inverse root degrees -/

set_option maxHeartbeats 400000 in
theorem sel_v15 : StableHlo.after hostOps0_1 W (Proc.devRef .tc main_v15) = select (W (Proc.devRef .tc main_v12)) (W (Proc.devRef .tc main_v13)) (W (Proc.devRef .tc main_v14)) := by
  first | after_results_simp | after_results
  all_goals rfl

set_option maxHeartbeats 400000 in
theorem sel_keeps_v5 : StableHlo.after hostOps0_1 W (Proc.devRef .tc main_v5) = (W (Proc.devRef .tc main_v5)) := by
  first | after_results_simp | after_results
  all_goals rfl

set_option maxHeartbeats 400000 in
theorem sel_keeps_v6 : StableHlo.after hostOps0_1 W (Proc.devRef .tc main_v6) = (W (Proc.devRef .tc main_v6)) := by
  first | after_results_simp | after_results
  all_goals rfl

set_option maxHeartbeats 400000 in
theorem sel_keeps_v3 : StableHlo.after hostOps0_1 W (Proc.devRef .tc main_v3) = (W (Proc.devRef .tc main_v3)) := by
  first | after_results_simp | after_results
  all_goals rfl

set_option maxHeartbeats 400000 in
theorem sel_keeps_arg0 : StableHlo.after hostOps0_1 W (Proc.devRef .tc main_arg0) = (W (Proc.devRef .tc main_arg0)) := by
  first | after_results_simp | after_results
  all_goals rfl

set_option maxHeartbeats 400000 in
theorem sel_keeps_arg2 : StableHlo.after hostOps0_1 W (Proc.devRef .tc main_arg2) = (W (Proc.devRef .tc main_arg2)) := by
  first | after_results_simp | after_results
  all_goals rfl

set_option maxHeartbeats 400000 in
theorem sel_keeps_arg3 : StableHlo.after hostOps0_1 W (Proc.devRef .tc main_arg3) = (W (Proc.devRef .tc main_arg3)) := by
  first | after_results_simp | after_results
  all_goals rfl

set_option maxHeartbeats 400000 in
theorem sel_keeps_arg4 : StableHlo.after hostOps0_1 W (Proc.devRef .tc main_arg4) = (W (Proc.devRef .tc main_arg4)) := by
  first | after_results_simp | after_results
  all_goals rfl

set_option maxHeartbeats 400000 in
theorem sel_keeps_arg5 : StableHlo.after hostOps0_1 W (Proc.devRef .tc main_arg5) = (W (Proc.devRef .tc main_arg5)) := by
  first | after_results_simp | after_results
  all_goals rfl

set_option maxHeartbeats 400000 in
theorem sel_keeps_arg6 : StableHlo.after hostOps0_1 W (Proc.devRef .tc main_arg6) = (W (Proc.devRef .tc main_arg6)) := by
  first | after_results_simp | after_results
  all_goals rfl

set_option maxHeartbeats 400000 in
theorem sel_keeps_arg7 : StableHlo.after hostOps0_1 W (Proc.devRef .tc main_arg7) = (W (Proc.devRef .tc main_arg7)) := by
  first | after_results_simp | after_results
  all_goals rfl

set_option maxHeartbeats 400000 in
theorem sel_keeps_arg8 : StableHlo.after hostOps0_1 W (Proc.devRef .tc main_arg8) = (W (Proc.devRef .tc main_arg8)) := by
  first | after_results_simp | after_results
  all_goals rfl

set_option maxHeartbeats 400000 in
theorem sel_keeps_arg9 : StableHlo.after hostOps0_1 W (Proc.devRef .tc main_arg9) = (W (Proc.devRef .tc main_arg9)) := by
  first | after_results_simp | after_results
  all_goals rfl

set_option maxHeartbeats 400000 in
theorem sel_keeps_arg10 : StableHlo.after hostOps0_1 W (Proc.devRef .tc main_arg10) = (W (Proc.devRef .tc main_arg10)) := by
  first | after_results_simp | after_results
  all_goals rfl

set_option maxHeartbeats 400000 in
theorem sel_keeps_arg11 : StableHlo.after hostOps0_1 W (Proc.devRef .tc main_arg11) = (W (Proc.devRef .tc main_arg11)) := by
  first | after_results_simp | after_results
  all_goals rfl

/-! ### The weights -/

set_option maxHeartbeats 400000 in
theorem wts_v30 : StableHlo.after hostOps0_2 W (Proc.devRef .tc main_v30) = Cert.GraphNet.weightsFrom (F := Ideal) (W (Proc.devRef .tc main_v15)) (W (Proc.devRef .tc main_v5)) (W (Proc.devRef .tc main_v6)) := by
  first | after_results_simp | after_results
  all_goals rfl

set_option maxHeartbeats 400000 in
theorem wts_keeps_v5 : StableHlo.after hostOps0_2 W (Proc.devRef .tc main_v5) = (W (Proc.devRef .tc main_v5)) := by
  first | after_results_simp | after_results
  all_goals rfl

set_option maxHeartbeats 400000 in
theorem wts_keeps_v6 : StableHlo.after hostOps0_2 W (Proc.devRef .tc main_v6) = (W (Proc.devRef .tc main_v6)) := by
  first | after_results_simp | after_results
  all_goals rfl

set_option maxHeartbeats 400000 in
theorem wts_keeps_v3 : StableHlo.after hostOps0_2 W (Proc.devRef .tc main_v3) = (W (Proc.devRef .tc main_v3)) := by
  first | after_results_simp | after_results
  all_goals rfl

set_option maxHeartbeats 400000 in
theorem wts_keeps_arg0 : StableHlo.after hostOps0_2 W (Proc.devRef .tc main_arg0) = (W (Proc.devRef .tc main_arg0)) := by
  first | after_results_simp | after_results
  all_goals rfl

set_option maxHeartbeats 400000 in
theorem wts_keeps_arg2 : StableHlo.after hostOps0_2 W (Proc.devRef .tc main_arg2) = (W (Proc.devRef .tc main_arg2)) := by
  first | after_results_simp | after_results
  all_goals rfl

set_option maxHeartbeats 400000 in
theorem wts_keeps_arg3 : StableHlo.after hostOps0_2 W (Proc.devRef .tc main_arg3) = (W (Proc.devRef .tc main_arg3)) := by
  first | after_results_simp | after_results
  all_goals rfl

set_option maxHeartbeats 400000 in
theorem wts_keeps_arg4 : StableHlo.after hostOps0_2 W (Proc.devRef .tc main_arg4) = (W (Proc.devRef .tc main_arg4)) := by
  first | after_results_simp | after_results
  all_goals rfl

set_option maxHeartbeats 400000 in
theorem wts_keeps_arg5 : StableHlo.after hostOps0_2 W (Proc.devRef .tc main_arg5) = (W (Proc.devRef .tc main_arg5)) := by
  first | after_results_simp | after_results
  all_goals rfl

set_option maxHeartbeats 400000 in
theorem wts_keeps_arg6 : StableHlo.after hostOps0_2 W (Proc.devRef .tc main_arg6) = (W (Proc.devRef .tc main_arg6)) := by
  first | after_results_simp | after_results
  all_goals rfl

set_option maxHeartbeats 400000 in
theorem wts_keeps_arg7 : StableHlo.after hostOps0_2 W (Proc.devRef .tc main_arg7) = (W (Proc.devRef .tc main_arg7)) := by
  first | after_results_simp | after_results
  all_goals rfl

set_option maxHeartbeats 400000 in
theorem wts_keeps_arg8 : StableHlo.after hostOps0_2 W (Proc.devRef .tc main_arg8) = (W (Proc.devRef .tc main_arg8)) := by
  first | after_results_simp | after_results
  all_goals rfl

set_option maxHeartbeats 400000 in
theorem wts_keeps_arg9 : StableHlo.after hostOps0_2 W (Proc.devRef .tc main_arg9) = (W (Proc.devRef .tc main_arg9)) := by
  first | after_results_simp | after_results
  all_goals rfl

set_option maxHeartbeats 400000 in
theorem wts_keeps_arg10 : StableHlo.after hostOps0_2 W (Proc.devRef .tc main_arg10) = (W (Proc.devRef .tc main_arg10)) := by
  first | after_results_simp | after_results
  all_goals rfl

set_option maxHeartbeats 400000 in
theorem wts_keeps_arg11 : StableHlo.after hostOps0_2 W (Proc.devRef .tc main_arg11) = (W (Proc.devRef .tc main_arg11)) := by
  first | after_results_simp | after_results
  all_goals rfl

/-! ### Between the first dense region and the pointwise one: propagate, look the embeddings up, the bias row -/

set_option maxHeartbeats 1000000 in
theorem prop1_v44 : StableHlo.after hostOps1 W (Proc.devRef .tc main_v44) = Cert.GraphNet.aggregateFrom (F := Ideal) (W (Proc.devRef .tc main_v6)) (W (Proc.devRef .tc main_v5)) (W (Proc.devRef .tc main_v30)) (W (Proc.devRef .tc main_v31)) := by
  first | after_results_simp | after_results
  all_goals rfl

set_option maxHeartbeats 1000000 in
theorem prop1_v58 : StableHlo.after hostOps1 W (Proc.devRef .tc main_v58) = Cert.GraphNet.edgeEmbeddingFrom (F := Ideal) (W (Proc.devRef .tc main_v3)) (W (Proc.devRef .tc main_arg2)) (W (Proc.devRef .tc main_arg3)) := by
  first | after_results_simp | after_results
  all_goals rfl

set_option maxHeartbeats 1000000 in
theorem prop1_v59 : StableHlo.after hostOps1 W (Proc.devRef .tc main_v59) = shapeCast S1x256 (W (Proc.devRef .tc main_arg5)) shapeCasts_S256_S1x256 := by
  first | after_results_simp | after_results
  all_goals rfl

set_option maxHeartbeats 1000000 in
theorem prop1_keeps_v5 : StableHlo.after hostOps1 W (Proc.devRef .tc main_v5) = (W (Proc.devRef .tc main_v5)) := by
  first | after_results_simp | after_results
  all_goals rfl

set_option maxHeartbeats 1000000 in
theorem prop1_keeps_v6 : StableHlo.after hostOps1 W (Proc.devRef .tc main_v6) = (W (Proc.devRef .tc main_v6)) := by
  first | after_results_simp | after_results
  all_goals rfl

set_option maxHeartbeats 1000000 in
theorem prop1_keeps_v30 : StableHlo.after hostOps1 W (Proc.devRef .tc main_v30) = (W (Proc.devRef .tc main_v30)) := by
  first | after_results_simp | after_results
  all_goals rfl

set_option maxHeartbeats 1000000 in
theorem prop1_keeps_arg6 : StableHlo.after hostOps1 W (Proc.devRef .tc main_arg6) = (W (Proc.devRef .tc main_arg6)) := by
  first | after_results_simp | after_results
  all_goals rfl

set_option maxHeartbeats 1000000 in
theorem prop1_keeps_arg7 : StableHlo.after hostOps1 W (Proc.devRef .tc main_arg7) = (W (Proc.devRef .tc main_arg7)) := by
  first | after_results_simp | after_results
  all_goals rfl

set_option maxHeartbeats 1000000 in
theorem prop1_keeps_arg8 : StableHlo.after hostOps1 W (Proc.devRef .tc main_arg8) = (W (Proc.devRef .tc main_arg8)) := by
  first | after_results_simp | after_results
  all_goals rfl

set_option maxHeartbeats 1000000 in
theorem prop1_keeps_arg9 : StableHlo.after hostOps1 W (Proc.devRef .tc main_arg9) = (W (Proc.devRef .tc main_arg9)) := by
  first | after_results_simp | after_results
  all_goals rfl

set_option maxHeartbeats 1000000 in
theorem prop1_keeps_arg10 : StableHlo.after hostOps1 W (Proc.devRef .tc main_arg10) = (W (Proc.devRef .tc main_arg10)) := by
  first | after_results_simp | after_results
  all_goals rfl

set_option maxHeartbeats 1000000 in
theorem prop1_keeps_arg11 : StableHlo.after hostOps1 W (Proc.devRef .tc main_arg11) = (W (Proc.devRef .tc main_arg11)) := by
  first | after_results_simp | after_results
  all_goals rfl

/-! ### Before the classifier: propagate again, three bias rows -/

set_option maxHeartbeats 1000000 in
theorem prop2_v74 : StableHlo.after hostOps3 W (Proc.devRef .tc main_v74) = Cert.GraphNet.aggregateFrom (F := Ideal) (W (Proc.devRef .tc main_v6)) (W (Proc.devRef .tc main_v5)) (W (Proc.devRef .tc main_v30)) (W (Proc.devRef .tc main_v61)) := by
  first | after_results_simp | after_results
  all_goals rfl

set_option maxHeartbeats 400000 in
theorem prop2_v75 : StableHlo.after hostOps3 W (Proc.devRef .tc main_v75) = shapeCast S1x256 (W (Proc.devRef .tc main_arg7)) shapeCasts_S256_S1x256 := by
  first | after_results_simp | after_results
  all_goals rfl

set_option maxHeartbeats 400000 in
theorem prop2_v76 : StableHlo.after hostOps3 W (Proc.devRef .tc main_v76) = shapeCast S1x128 (W (Proc.devRef .tc main_arg9)) shapeCasts_S128_S1x128 := by
  first | after_results_simp | after_results
  all_goals rfl

set_option maxHeartbeats 400000 in
theorem prop2_v77 : StableHlo.after hostOps3 W (Proc.devRef .tc main_v77) = shapeCast S1x2 (W (Proc.devRef .tc main_arg11)) shapeCasts_S2_S1x2 := by
  first | after_results_simp | after_results
  all_goals rfl

set_option maxHeartbeats 400000 in
theorem prop2_keeps_arg8 : StableHlo.after hostOps3 W (Proc.devRef .tc main_arg8) = (W (Proc.devRef .tc main_arg8)) := by
  first | after_results_simp | after_results
  all_goals rfl

set_option maxHeartbeats 400000 in
theorem prop2_keeps_arg10 : StableHlo.after hostOps3 W (Proc.devRef .tc main_arg10) = (W (Proc.devRef .tc main_arg10)) := by
  first | after_results_simp | after_results
  all_goals rfl

end Stretches

/-! ## The boundaries of THIS run: what the later segments read, as pieces of the network of the arguments -/

/-- The launch contents at an argument are the argument. -/
theorem W0_arg (k : Ref sig .tc) : W0 m ρ c (Proc.devRef .tc k) = arg m c k := rfl

/-! ### At the first region's entry -/

theorem at3_v5 : W3 m ρ c (Proc.devRef .tc main_v5) = (Cert.GraphNet.withLoops (F := Ideal) (Cert.GraphNet.sources (F := Ideal) (arg m c main_arg1))) := by
  show StableHlo.after hostOps0_2 (StableHlo.after hostOps0_1 (StableHlo.after hostOps0 (W0 m ρ c))) (Proc.devRef .tc main_v5) = _
  rw [wts_keeps_v5, sel_keeps_v5, ends_v5, W0_arg]

theorem at3_v6 : W3 m ρ c (Proc.devRef .tc main_v6) = (Cert.GraphNet.withLoops (F := Ideal) (Cert.GraphNet.targets (F := Ideal) (arg m c main_arg1))) := by
  show StableHlo.after hostOps0_2 (StableHlo.after hostOps0_1 (StableHlo.after hostOps0 (W0 m ρ c))) (Proc.devRef .tc main_v6) = _
  rw [wts_keeps_v6, sel_keeps_v6, ends_v6, W0_arg]

theorem at3_v3 : W3 m ρ c (Proc.devRef .tc main_v3) = (Cert.GraphNet.targets (F := Ideal) (arg m c main_arg1)) := by
  show StableHlo.after hostOps0_2 (StableHlo.after hostOps0_1 (StableHlo.after hostOps0 (W0 m ρ c))) (Proc.devRef .tc main_v3) = _
  rw [wts_keeps_v3, sel_keeps_v3, ends_v3, W0_arg]

theorem at3_v30 : W3 m ρ c (Proc.devRef .tc main_v30) = (Cert.GraphNet.weights (F := Ideal) (arg m c main_arg1)) := by
  show StableHlo.after hostOps0_2 (StableHlo.after hostOps0_1 (StableHlo.after hostOps0 (W0 m ρ c))) (Proc.devRef .tc main_v30) = _
  rw [wts_v30, sel_v15, sel_keeps_v5, sel_keeps_v6, ends_v12, ends_v13, ends_v14, ends_v5, ends_v6, W0_arg, Cert.GraphNet.weights_eq]
  rfl

theorem at3_arg0 : W3 m ρ c (Proc.devRef .tc main_arg0) = (arg m c main_arg0) := by
  show StableHlo.after hostOps0_2 (StableHlo.after hostOps0_1 (StableHlo.after hostOps0 (W0 m ρ c))) (Proc.devRef .tc main_arg0) = _
  rw [wts_keeps_arg0, sel_keeps_arg0, ends_keeps_arg0, W0_arg]

theorem at3_arg2 : W3 m ρ c (Proc.devRef .tc main_arg2) = (arg m c main_arg2) := by
  show StableHlo.after hostOps0_2 (StableHlo.after hostOps0_1 (StableHlo.after hostOps0 (W0 m ρ c))) (Proc.devRef .tc main_arg2) = _
  rw [wts_keeps_arg2, sel_keeps_arg2, ends_keeps_arg2, W0_arg]

theorem at3_arg3 : W3 m ρ c (Proc.devRef .tc main_arg3) = (arg m c main_arg3) := by
  show StableHlo.after hostOps0_2 (StableHlo.after hostOps0_1 (StableHlo.after hostOps0 (W0 m ρ c))) (Proc.devRef .tc main_arg3) = _
  rw [wts_keeps_arg3, sel_keeps_arg3, ends_keeps_arg3, W0_arg]

theorem at3_arg4 : W3 m ρ c (Proc.devRef .tc main_arg4) = (arg m c main_arg4) := by
  show StableHlo.after hostOps0_2 (StableHlo.after hostOps0_1 (StableHlo.after hostOps0 (W0 m ρ c))) (Proc.devRef .tc main_arg4) = _
  rw [wts_keeps_arg4, sel_keeps_arg4, ends_keeps_arg4, W0_arg]

theorem at3_arg5 : W3 m ρ c (Proc.devRef .tc main_arg5) = (arg m c main_arg5) := by
  show StableHlo.after hostOps0_2 (StableHlo.after hostOps0_1 (StableHlo.after hostOps0 (W0 m ρ c))) (Proc.devRef .tc main_arg5) = _
  rw [wts_keeps_arg5, sel_keeps_arg5, ends_keeps_arg5, W0_arg]

theorem at3_arg6 : W3 m ρ c (Proc.devRef .tc main_arg6) = (arg m c main_arg6) := by
  show StableHlo.after hostOps0_2 (StableHlo.after hostOps0_1 (StableHlo.after hostOps0 (W0 m ρ c))) (Proc.devRef .tc main_arg6) = _
  rw [wts_keeps_arg6, sel_keeps_arg6, ends_keeps_arg6, W0_arg]

theorem at3_arg7 : W3 m ρ c (Proc.devRef .tc main_arg7) = (arg m c main_arg7) := by
  show StableHlo.after hostOps0_2 (StableHlo.after hostOps0_1 (StableHlo.after hostOps0 (W0 m ρ c))) (Proc.devRef .tc main_arg7) = _
  rw [wts_keeps_arg7, sel_keeps_arg7, ends_keeps_arg7, W0_arg]

theorem at3_arg8 : W3 m ρ c (Proc.devRef .tc main_arg8) = (arg m c main_arg8) := by
  show StableHlo.after hostOps0_2 (StableHlo.after hostOps0_1 (StableHlo.after hostOps0 (W0 m ρ c))) (Proc.devRef .tc main_arg8) = _
  rw [wts_keeps_arg8, sel_keeps_arg8, ends_keeps_arg8, W0_arg]

theorem at3_arg9 : W3 m ρ c (Proc.devRef .tc main_arg9) = (arg m c main_arg9) := by
  show StableHlo.after hostOps0_2 (StableHlo.after hostOps0_1 (StableHlo.after hostOps0 (W0 m ρ c))) (Proc.devRef .tc main_arg9) = _
  rw [wts_keeps_arg9, sel_keeps_arg9, ends_keeps_arg9, W0_arg]

theorem at3_arg10 : W3 m ρ c (Proc.devRef .tc main_arg10) = (arg m c main_arg10) := by
  show StableHlo.after hostOps0_2 (StableHlo.after hostOps0_1 (StableHlo.after hostOps0 (W0 m ρ c))) (Proc.devRef .tc main_arg10) = _
  rw [wts_keeps_arg10, sel_keeps_arg10, ends_keeps_arg10, W0_arg]

theorem at3_arg11 : W3 m ρ c (Proc.devRef .tc main_arg11) = (arg m c main_arg11) := by
  show StableHlo.after hostOps0_2 (StableHlo.after hostOps0_1 (StableHlo.after hostOps0 (W0 m ρ c))) (Proc.devRef .tc main_arg11) = _
  rw [wts_keeps_arg11, sel_keeps_arg11, ends_keeps_arg11, W0_arg]

/-! ### At the first region's exit: everything but its output is as entered -/

theorem at4_v5 : W4 m ρ c (Proc.devRef .tc main_v5) = (Cert.GraphNet.withLoops (F := Ideal) (Cert.GraphNet.sources (F := Ideal) (arg m c main_arg1))) :=
  (W4_of_ne m ρ c main_v5 (by decide)).trans (at3_v5 m ρ c)

theorem at4_v6 : W4 m ρ c (Proc.devRef .tc main_v6) = (Cert.GraphNet.withLoops (F := Ideal) (Cert.GraphNet.targets (F := Ideal) (arg m c main_arg1))) :=
  (W4_of_ne m ρ c main_v6 (by decide)).trans (at3_v6 m ρ c)

theorem at4_v3 : W4 m ρ c (Proc.devRef .tc main_v3) = (Cert.GraphNet.targets (F := Ideal) (arg m c main_arg1)) :=
  (W4_of_ne m ρ c main_v3 (by decide)).trans (at3_v3 m ρ c)

theorem at4_v30 : W4 m ρ c (Proc.devRef .tc main_v30) = (Cert.GraphNet.weights (F := Ideal) (arg m c main_arg1)) :=
  (W4_of_ne m ρ c main_v30 (by decide)).trans (at3_v30 m ρ c)

theorem at4_arg2 : W4 m ρ c (Proc.devRef .tc main_arg2) = (arg m c main_arg2) :=
  (W4_of_ne m ρ c main_arg2 (by decide)).trans (at3_arg2 m ρ c)

theorem at4_arg3 : W4 m ρ c (Proc.devRef .tc main_arg3) = (arg m c main_arg3) :=
  (W4_of_ne m ρ c main_arg3 (by decide)).trans (at3_arg3 m ρ c)

theorem at4_arg5 : W4 m ρ c (Proc.devRef .tc main_arg5) = (arg m c main_arg5) :=
  (W4_of_ne m ρ c main_arg5 (by decide)).trans (at3_arg5 m ρ c)

theorem at4_arg6 : W4 m ρ c (Proc.devRef .tc main_arg6) = (arg m c main_arg6) :=
  (W4_of_ne m ρ c main_arg6 (by decide)).trans (at3_arg6 m ρ c)

theorem at4_arg7 : W4 m ρ c (Proc.devRef .tc main_arg7) = (arg m c main_arg7) :=
  (W4_of_ne m ρ c main_arg7 (by decide)).trans (at3_arg7 m ρ c)

theorem at4_arg8 : W4 m ρ c (Proc.devRef .tc main_arg8) = (arg m c main_arg8) :=
  (W4_of_ne m ρ c main_arg8 (by decide)).trans (at3_arg8 m ρ c)

theorem at4_arg9 : W4 m ρ c (Proc.devRef .tc main_arg9) = (arg m c main_arg9) :=
  (W4_of_ne m ρ c main_arg9 (by decide)).trans (at3_arg9 m ρ c)

theorem at4_arg10 : W4 m ρ c (Proc.devRef .tc main_arg10) = (arg m c main_arg10) :=
  (W4_of_ne m ρ c main_arg10 (by decide)).trans (at3_arg10 m ρ c)

theorem at4_arg11 : W4 m ρ c (Proc.devRef .tc main_arg11) = (arg m c main_arg11) :=
  (W4_of_ne m ρ c main_arg11 (by decide)).trans (at3_arg11 m ρ c)

/-! ### Carried to the second region's exit: the stretch between does not write them, nor do the two regions -/

theorem at5_v5 : W5 m ρ c (Proc.devRef .tc main_v5) = (Cert.GraphNet.withLoops (F := Ideal) (Cert.GraphNet.sources (F := Ideal) (arg m c main_arg1))) :=
  (prop1_keeps_v5 (W4 m ρ c)).trans (at4_v5 m ρ c)
theorem at6_v5 : W6 m ρ c (Proc.devRef .tc main_v5) = (Cert.GraphNet.withLoops (F := Ideal) (Cert.GraphNet.sources (F := Ideal) (arg m c main_arg1))) :=
  (W6_of_ne m ρ c main_v5 (by decide)).trans (at5_v5 m ρ c)
theorem at7_v5 : W7 m ρ c (Proc.devRef .tc main_v5) = (Cert.GraphNet.withLoops (F := Ideal) (Cert.GraphNet.sources (F := Ideal) (arg m c main_arg1))) :=
  (W7_of_ne m ρ c main_v5 (by decide)).trans (at6_v5 m ρ c)

theorem at5_v6 : W5 m ρ c (Proc.devRef .tc main_v6) = (Cert.GraphNet.withLoops (F := Ideal) (Cert.GraphNet.targets (F := Ideal) (arg m c main_arg1))) :=
  (prop1_keeps_v6 (W4 m ρ c)).trans (at4_v6 m ρ c)
theorem at6_v6 : W6 m ρ c (Proc.devRef .tc main_v6) = (Cert.GraphNet.withLoops (F := Ideal) (Cert.GraphNet.targets (F := Ideal) (arg m c main_arg1))) :=
  (W6_of_ne m ρ c main_v6 (by decide)).trans (at5_v6 m ρ c)
theorem at7_v6 : W7 m ρ c (Proc.devRef .tc main_v6) = (Cert.GraphNet.withLoops (F := Ideal) (Cert.GraphNet.targets (F := Ideal) (arg m c main_arg1))) :=
  (W7_of_ne m ρ c main_v6 (by decide)).trans (at6_v6 m ρ c)

theorem at5_v30 : W5 m ρ c (Proc.devRef .tc main_v30) = (Cert.GraphNet.weights (F := Ideal) (arg m c main_arg1)) :=
  (prop1_keeps_v30 (W4 m ρ c)).trans (at4_v30 m ρ c)
theorem at6_v30 : W6 m ρ c (Proc.devRef .tc main_v30) = (Cert.GraphNet.weights (F := Ideal) (arg m c main_arg1)) :=
  (W6_of_ne m ρ c main_v30 (by decide)).trans (at5_v30 m ρ c)
theorem at7_v30 : W7 m ρ c (Proc.devRef .tc main_v30) = (Cert.GraphNet.weights (F := Ideal) (arg m c main_arg1)) :=
  (W7_of_ne m ρ c main_v30 (by decide)).trans (at6_v30 m ρ c)

theorem at5_arg6 : W5 m ρ c (Proc.devRef .tc main_arg6) = (arg m c main_arg6) :=
  (prop1_keeps_arg6 (W4 m ρ c)).trans (at4_arg6 m ρ c)
theorem at6_arg6 : W6 m ρ c (Proc.devRef .tc main_arg6) = (arg m c main_arg6) :=
  (W6_of_ne m ρ c main_arg6 (by decide)).trans (at5_arg6 m ρ c)

theorem at5_arg7 : W5 m ρ c (Proc.devRef .tc main_arg7) = (arg m c main_arg7) :=
  (prop1_keeps_arg7 (W4 m ρ c)).trans (at4_arg7 m ρ c)
theorem at6_arg7 : W6 m ρ c (Proc.devRef .tc main_arg7) = (arg m c main_arg7) :=
  (W6_of_ne m ρ c main_arg7 (by decide)).trans (at5_arg7 m ρ c)
theorem at7_arg7 : W7 m ρ c (Proc.devRef .tc main_arg7) = (arg m c main_arg7) :=
  (W7_of_ne m ρ c main_arg7 (by decide)).trans (at6_arg7 m ρ c)

theorem at5_arg8 : W5 m ρ c (Proc.devRef .tc main_arg8) = (arg m c main_arg8) :=
  (prop1_keeps_arg8 (W4 m ρ c)).trans (at4_arg8 m ρ c)
theorem at6_arg8 : W6 m ρ c (Proc.devRef .tc main_arg8) = (arg m c main_arg8) :=
  (W6_of_ne m ρ c main_arg8 (by decide)).trans (at5_arg8 m ρ c)
theorem at7_arg8 : W7 m ρ c (Proc.devRef .tc main_arg8) = (arg m c main_arg8) :=
  (W7_of_ne m ρ c main_arg8 (by decide)).trans (at6_arg8 m ρ c)

theorem at5_arg9 : W5 m ρ c (Proc.devRef .tc main_arg9) = (arg m c main_arg9) :=
  (prop1_keeps_arg9 (W4 m ρ c)).trans (at4_arg9 m ρ c)
theorem at6_arg9 : W6 m ρ c (Proc.devRef .tc main_arg9) = (arg m c main_arg9) :=
  (W6_of_ne m ρ c main_arg9 (by decide)).trans (at5_arg9 m ρ c)
theorem at7_arg9 : W7 m ρ c (Proc.devRef .tc main_arg9) = (arg m c main_arg9) :=
  (W7_of_ne m ρ c main_arg9 (by decide)).trans (at6_arg9 m ρ c)

theorem at5_arg10 : W5 m ρ c (Proc.devRef .tc main_arg10) = (arg m c main_arg10) :=
  (prop1_keeps_arg10 (W4 m ρ c)).trans (at4_arg10 m ρ c)
theorem at6_arg10 : W6 m ρ c (Proc.devRef .tc main_arg10) = (arg m c main_arg10) :=
  (W6_of_ne m ρ c main_arg10 (by decide)).trans (at5_arg10 m ρ c)
theorem at7_arg10 : W7 m ρ c (Proc.devRef .tc main_arg10) = (arg m c main_arg10) :=
  (W7_of_ne m ρ c main_arg10 (by decide)).trans (at6_arg10 m ρ c)

theorem at5_arg11 : W5 m ρ c (Proc.devRef .tc main_arg11) = (arg m c main_arg11) :=
  (prop1_keeps_arg11 (W4 m ρ c)).trans (at4_arg11 m ρ c)
theorem at6_arg11 : W6 m ρ c (Proc.devRef .tc main_arg11) = (arg m c main_arg11) :=
  (W6_of_ne m ρ c main_arg11 (by decide)).trans (at5_arg11 m ρ c)
theorem at7_arg11 : W7 m ρ c (Proc.devRef .tc main_arg11) = (arg m c main_arg11) :=
  (W7_of_ne m ρ c main_arg11 (by decide)).trans (at6_arg11 m ρ c)

theorem at8_arg8 : W8 m ρ c (Proc.devRef .tc main_arg8) = (arg m c main_arg8) :=
  (prop2_keeps_arg8 (W7 m ρ c)).trans (at7_arg8 m ρ c)

theorem at8_arg10 : W8 m ρ c (Proc.devRef .tc main_arg10) = (arg m c main_arg10) :=
  (prop2_keeps_arg10 (W7 m ρ c)).trans (at7_arg10 m ρ c)

/-! ## The regions' outputs, and the result

Each region's value lemma is taken as a hypothesis, stated for any entry contents `V`: the modules that prove them
and this one are independent. -/

section Regions

variable
  (dense0 : ∀ (V : (c : Dev nD) → (b : Ref sig .tc) → Buf (Elt Ideal) ((c : Thread nD τ).loc b)) (c : Dev nD),
    (dat0 (F := Ideal) V c).arrAt 2 cfg0.N = Cert.GraphNet.dense (F := Ideal) (V c main_arg0) (V c main_arg4))
  (hidden1 : ∀ (V : (c : Dev nD) → (b : Ref sig .tc) → Buf (Elt Ideal) ((c : Thread nD τ).loc b)) (c : Dev nD),
    (dat1 (F := Ideal) V c).arrAt 3 cfg1.N = Cert.GraphNet.hidden (F := Ideal) (V c main_v44) (V c main_v59) (V c main_v58))
  (dense2 : ∀ (V : (c : Dev nD) → (b : Ref sig .tc) → Buf (Elt Ideal) ((c : Thread nD τ).loc b)) (c : Dev nD),
    (dat2 (F := Ideal) V c).arrAt 2 cfg2.N = Cert.GraphNet.dense (F := Ideal) (V c main_v60) (V c main_arg6))
  (classify3 : ∀ (V : (c : Dev nD) → (b : Ref sig .tc) → Buf (Elt Ideal) ((c : Thread nD τ).loc b)) (c : Dev nD),
    (dat3 (F := Ideal) V c).arrAt 6 cfg3.N
      = Cert.GraphNet.classify (F := Ideal) (V c main_v74) (V c main_v75) (V c main_arg8) (V c main_v76) (V c main_arg10) (V c main_v77))
  (row256_eq : ∀ b : Vec Ideal S256 .f32, shapeCast S1x256 b shapeCasts_S256_S1x256 = Cert.GraphNet.row256 (F := Ideal) b)
  (row128_eq : ∀ b : Vec Ideal S128 .f32, shapeCast S1x128 b shapeCasts_S128_S1x128 = Cert.GraphNet.row128 (F := Ideal) b)
  (row2_eq : ∀ b : Vec Ideal S2 .f32, shapeCast S1x2 b shapeCasts_S2_S1x2 = Cert.GraphNet.row2 (F := Ideal) b)

include dense0 in
/-- The first dense region leaves `x · W1`. -/
theorem at4_v31 : W4 m ρ c (Proc.devRef .tc main_v31) = Cert.GraphNet.dense (F := Ideal) (arg m c main_arg0) (arg m c main_arg4) := by
  refine (W4_arr m ρ c 2).trans ((dense0 (V3 m ρ) c).trans ?_)
  rw [show V3 m ρ c main_arg0 = (arg m c main_arg0) from at3_arg0 m ρ c, show V3 m ρ c main_arg4 = (arg m c main_arg4) from at3_arg4 m ρ c]

include dense0 in
theorem at5_v44 : W5 m ρ c (Proc.devRef .tc main_v44) = (Cert.GraphNet.aggregate (F := Ideal) (arg m c main_arg1) (Cert.GraphNet.dense (F := Ideal) (arg m c main_arg0) (arg m c main_arg4))) := by
  refine (prop1_v44 (W4 m ρ c)).trans ?_
  rw [at4_v6, at4_v5, at4_v30, at4_v31 m ρ c dense0]
  exact (Cert.GraphNet.aggregate_eq _ _).symm

theorem at5_v58 : W5 m ρ c (Proc.devRef .tc main_v58) = (Cert.GraphNet.edgeEmbedding (F := Ideal) (arg m c main_arg1) (arg m c main_arg2) (arg m c main_arg3)) := by
  refine (prop1_v58 (W4 m ρ c)).trans ?_
  rw [at4_v3, at4_arg2, at4_arg3]
  exact (Cert.GraphNet.edgeEmbedding_eq _ _ _).symm

include row256_eq in
theorem at5_v59 : W5 m ρ c (Proc.devRef .tc main_v59) = Cert.GraphNet.row256 (F := Ideal) (arg m c main_arg5) := by
  refine (prop1_v59 (W4 m ρ c)).trans ?_
  rw [at4_arg5, row256_eq]

include dense0 hidden1 row256_eq in
/-- The pointwise region leaves the first layer's output. -/
theorem at6_v60 : W6 m ρ c (Proc.devRef .tc main_v60) = (Cert.GraphNet.hidden (F := Ideal) (Cert.GraphNet.aggregate (F := Ideal) (arg m c main_arg1) (Cert.GraphNet.dense (F := Ideal) (arg m c main_arg0) (arg m c main_arg4))) (Cert.GraphNet.row256 (F := Ideal) (arg m c main_arg5)) (Cert.GraphNet.edgeEmbedding (F := Ideal) (arg m c main_arg1) (arg m c main_arg2) (arg m c main_arg3))) := by
  refine (W6_arr m ρ c 3).trans ((hidden1 (V5 m ρ) c).trans ?_)
  rw [show V5 m ρ c main_v44 = (Cert.GraphNet.aggregate (F := Ideal) (arg m c main_arg1) (Cert.GraphNet.dense (F := Ideal) (arg m c main_arg0) (arg m c main_arg4))) from at5_v44 m ρ c dense0,
    show V5 m ρ c main_v59 = Cert.GraphNet.row256 (F := Ideal) (arg m c main_arg5) from at5_v59 m ρ c row256_eq,
    show V5 m ρ c main_v58 = (Cert.GraphNet.edgeEmbedding (F := Ideal) (arg m c main_arg1) (arg m c main_arg2) (arg m c main_arg3)) from at5_v58 m ρ c]

include dense0 hidden1 dense2 row256_eq in
/-- The second dense region leaves `h1 · W2`. -/
theorem at7_v61 : W7 m ρ c (Proc.devRef .tc main_v61) = (Cert.GraphNet.dense (F := Ideal) (Cert.GraphNet.hidden (F := Ideal) (Cert.GraphNet.aggregate (F := Ideal) (arg m c main_arg1) (Cert.GraphNet.dense (F := Ideal) (arg m c main_arg0) (arg m c main_arg4))) (Cert.GraphNet.row256 (F := Ideal) (arg m c main_arg5)) (Cert.GraphNet.edgeEmbedding (F := Ideal) (arg m c main_arg1) (arg m c main_arg2) (arg m c main_arg3))) (arg m c main_arg6)) := by
  refine (W7_arr m ρ c 2).trans ((dense2 (V6 m ρ) c).trans ?_)
  rw [show V6 m ρ c main_v60 = (Cert.GraphNet.hidden (F := Ideal) (Cert.GraphNet.aggregate (F := Ideal) (arg m c main_arg1) (Cert.GraphNet.dense (F := Ideal) (arg m c main_arg0) (arg m c main_arg4))) (Cert.GraphNet.row256 (F := Ideal) (arg m c main_arg5)) (Cert.GraphNet.edgeEmbedding (F := Ideal) (arg m c main_arg1) (arg m c main_arg2) (arg m c main_arg3))) from at6_v60 m ρ c dense0 hidden1 row256_eq,
    show V6 m ρ c main_arg6 = (arg m c main_arg6) from at6_arg6 m ρ c]

include dense0 hidden1 dense2 row256_eq in
theorem at8_v74 : W8 m ρ c (Proc.devRef .tc main_v74) = (Cert.GraphNet.aggregate (F := Ideal) (arg m c main_arg1) (Cert.GraphNet.dense (F := Ideal) (Cert.GraphNet.hidden (F := Ideal) (Cert.GraphNet.aggregate (F := Ideal) (arg m c main_arg1) (Cert.GraphNet.dense (F := Ideal) (arg m c main_arg0) (arg m c main_arg4))) (Cert.GraphNet.row256 (F := Ideal) (arg m c main_arg5)) (Cert.GraphNet.edgeEmbedding (F := Ideal) (arg m c main_arg1) (arg m c main_arg2) (arg m c main_arg3))) (arg m c main_arg6))) := by
  refine (prop2_v74 (W7 m ρ c)).trans ?_
  rw [at7_v6, at7_v5, at7_v30, at7_v61 m ρ c dense0 hidden1 dense2 row256_eq]
  exact (Cert.GraphNet.aggregate_eq _ _).symm

include row256_eq in
theorem at8_v75 : W8 m ρ c (Proc.devRef .tc main_v75) = Cert.GraphNet.row256 (F := Ideal) (arg m c main_arg7) := by
  refine (prop2_v75 (W7 m ρ c)).trans ?_
  rw [at7_arg7, row256_eq]

include row128_eq in
theorem at8_v76 : W8 m ρ c (Proc.devRef .tc main_v76) = Cert.GraphNet.row128 (F := Ideal) (arg m c main_arg9) := by
  refine (prop2_v76 (W7 m ρ c)).trans ?_
  rw [at7_arg9, row128_eq]

include row2_eq in
theorem at8_v77 : W8 m ρ c (Proc.devRef .tc main_v77) = Cert.GraphNet.row2 (F := Ideal) (arg m c main_arg11) := by
  refine (prop2_v77 (W7 m ρ c)).trans ?_
  rw [at7_arg11, row2_eq]

include dense0 hidden1 dense2 classify3 row256_eq row128_eq row2_eq in
set_option maxHeartbeats 2000000 in
/-- THE RESULT: after the run the result array holds the network of the twelve argument arrays. -/
theorem result : W9 m ρ c (Proc.devRef .tc main_v78)
    = Cert.GraphNet.out (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) := by
  refine (W9_arr m ρ c 6).trans ((classify3 (V8 m ρ) c).trans ?_)
  rw [show V8 m ρ c main_v74 = (Cert.GraphNet.aggregate (F := Ideal) (arg m c main_arg1) (Cert.GraphNet.dense (F := Ideal) (Cert.GraphNet.hidden (F := Ideal) (Cert.GraphNet.aggregate (F := Ideal) (arg m c main_arg1) (Cert.GraphNet.dense (F := Ideal) (arg m c main_arg0) (arg m c main_arg4))) (Cert.GraphNet.row256 (F := Ideal) (arg m c main_arg5)) (Cert.GraphNet.edgeEmbedding (F := Ideal) (arg m c main_arg1) (arg m c main_arg2) (arg m c main_arg3))) (arg m c main_arg6))) from at8_v74 m ρ c dense0 hidden1 dense2 row256_eq,
    show V8 m ρ c main_v75 = Cert.GraphNet.row256 (F := Ideal) (arg m c main_arg7) from at8_v75 m ρ c row256_eq,
    show V8 m ρ c main_arg8 = (arg m c main_arg8) from at8_arg8 m ρ c,
    show V8 m ρ c main_v76 = Cert.GraphNet.row128 (F := Ideal) (arg m c main_arg9) from at8_v76 m ρ c row128_eq,
    show V8 m ρ c main_arg10 = (arg m c main_arg10) from at8_arg10 m ρ c,
    show V8 m ρ c main_v77 = Cert.GraphNet.row2 (F := Ideal) (arg m c main_arg11) from at8_v77 m ρ c row2_eq]
  rfl

end Regions

end Cert.KernelIdeal.Fold
end
-- ==== Proof.Dense0.lean ====
/-
  Region 0 multiplies the node features by the first layer's weights, 4096 rows at a time.  At grid point t the
  body loads rows 4096·t … 4096·t + 4095 of the [262144, 256] feature array (its block row t) and the whole
  [256, 256] weight array, multiplies them into a zero accumulator, and the pipeline writes the [4096, 256] product
  back as block row t of the result.  Over the extended reals a change of float format is the identity and a product
  into the zero accumulator is the plain sum  ∑ k, x[r, k] · w[k, c];  the host's product of the two whole arrays is the
  same sum at every index.  So block row t of the host's product is what point t writes back, and since row r lies in
  block row r / 4096 and the grid has 64 points, the blocks cover the array: the result array ends at the host's product.
-/
import proofs.«100892_j70695161692530_1_alg».proof.Proof.Gen.KernelIdeal.Frame
import proofs.«100892_j70695161692530_1_alg».proof.Proof.GraphNet
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Dense0
open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- The zero offsets of a whole-buffer access, as the constant function. -/
theorem zeroOffsets : (![0, 0] : Fin 2 → Nat) = fun _ => 0 :=
  funext fun a => by match a with | ⟨0, _⟩ => rfl | ⟨1, _⟩ => rfl

/-! ## The two products read at an index -/

section Products
open ValueIdx

/-- The left factor's row in the block product is the entry's row. -/
theorem blockDot_lhs_row (i : S4096x256.Idx) (κ : dot_S4096x256_S256x256_S4096x256_1_0_0_1_n_n.contr.Idx) :
    (dot_S4096x256_S256x256_S4096x256_1_0_0_1_n_n.lhsIdx i κ 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
/-- The right factor's column in the block product is the entry's column. -/
theorem blockDot_rhs_col (i : S4096x256.Idx) (κ : dot_S4096x256_S256x256_S4096x256_1_0_0_1_n_n.contr.Idx) :
    (dot_S4096x256_S256x256_S4096x256_1_0_0_1_n_n.rhsIdx i κ 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- In the block product, entry (p, q) pairs entry (p, k) of the left factor with entry (k, q) of the right. -/
theorem blockDot_idx (p : Fin 4096) (q k : Fin 256) :
    dot_S4096x256_S256x256_S4096x256_1_0_0_1_n_n.lhsIdx (ix2 p q)
        ((contrEquiv1 dot_S4096x256_S256x256_S4096x256_1_0_0_1_n_n 256 rfl rfl).symm k) = ix2 p k
    ∧ dot_S4096x256_S256x256_S4096x256_1_0_0_1_n_n.rhsIdx (ix2 p q)
        ((contrEquiv1 dot_S4096x256_S256x256_S4096x256_1_0_0_1_n_n 256 rfl rfl).symm k) = ix2 k q := by
  have hk := contrEquiv1_symm_val dot_S4096x256_S256x256_S4096x256_1_0_0_1_n_n 256 rfl rfl k
  refine ⟨funext fun a => Fin.ext ?_, funext fun a => Fin.ext ?_⟩
  · match a with
    | ⟨0, _⟩ => exact blockDot_lhs_row _ _
    | ⟨1, _⟩ => exact (dot_S4096x256_S256x256_S4096x256_1_0_0_1_n_n.lhsIdx_val_of_single rfl _ _).trans hk
  · match a with
    | ⟨0, _⟩ => exact (dot_S4096x256_S256x256_S4096x256_1_0_0_1_n_n.rhsIdx_val_of_single rfl _ _).trans hk
    | ⟨1, _⟩ => exact blockDot_rhs_col _ _

/-- The left factor's row in the host's product is the entry's row. -/
theorem wholeDot_lhs_row (i : S262144x256.Idx) (κ : Cert.ReferenceIdeal.dot_S262144x256_S256x256_S262144x256_1_0_0_1_n_n.contr.Idx) :
    (Cert.ReferenceIdeal.dot_S262144x256_S256x256_S262144x256_1_0_0_1_n_n.lhsIdx i κ 0).val = (i 0).val := by
  unfold DotDims.lhsIdx
  rw [dif_neg (show ¬(0 : Fin S262144x256.rank) ∈ Cert.ReferenceIdeal.dot_S262144x256_S256x256_S262144x256_1_0_0_1_n_n.lhsBatch by decide),
    dif_pos (show (0 : Fin S262144x256.rank) ∈ Cert.ReferenceIdeal.dot_S262144x256_S256x256_S262144x256_1_0_0_1_n_n.lhsNonContracting by decide)]
  rfl
/-- The right factor's column in the host's product is the entry's column. -/
theorem wholeDot_rhs_col (i : S262144x256.Idx) (κ : Cert.ReferenceIdeal.dot_S262144x256_S256x256_S262144x256_1_0_0_1_n_n.contr.Idx) :
    (Cert.ReferenceIdeal.dot_S262144x256_S256x256_S262144x256_1_0_0_1_n_n.rhsIdx i κ 1).val = (i 1).val := by
  unfold DotDims.rhsIdx
  rw [dif_neg (show ¬(1 : Fin S256x256.rank) ∈ Cert.ReferenceIdeal.dot_S262144x256_S256x256_S262144x256_1_0_0_1_n_n.rhsBatch by decide),
    dif_pos (show (1 : Fin S256x256.rank) ∈ Cert.ReferenceIdeal.dot_S262144x256_S256x256_S262144x256_1_0_0_1_n_n.rhsNonContracting by decide)]
  rfl

/-- The same pairing in the host's product of the whole arrays. -/
theorem wholeDot_idx (r : Fin 262144) (q k : Fin 256) :
    Cert.ReferenceIdeal.dot_S262144x256_S256x256_S262144x256_1_0_0_1_n_n.lhsIdx (ix2 r q)
        ((contrEquiv1 Cert.ReferenceIdeal.dot_S262144x256_S256x256_S262144x256_1_0_0_1_n_n 256 rfl rfl).symm k) = ix2 r k
    ∧ Cert.ReferenceIdeal.dot_S262144x256_S256x256_S262144x256_1_0_0_1_n_n.rhsIdx (ix2 r q)
        ((contrEquiv1 Cert.ReferenceIdeal.dot_S262144x256_S256x256_S262144x256_1_0_0_1_n_n 256 rfl rfl).symm k) = ix2 k q := by
  have hk := contrEquiv1_symm_val Cert.ReferenceIdeal.dot_S262144x256_S256x256_S262144x256_1_0_0_1_n_n 256 rfl rfl k
  refine ⟨funext fun a => Fin.ext ?_, funext fun a => Fin.ext ?_⟩
  · match a with
    | ⟨0, _⟩ => exact wholeDot_lhs_row _ _
    | ⟨1, _⟩ => exact (Cert.ReferenceIdeal.dot_S262144x256_S256x256_S262144x256_1_0_0_1_n_n.lhsIdx_val_of_single rfl _ _).trans hk
  · match a with
    | ⟨0, _⟩ => exact (Cert.ReferenceIdeal.dot_S262144x256_S256x256_S262144x256_1_0_0_1_n_n.rhsIdx_val_of_single rfl _ _).trans hk
    | ⟨1, _⟩ => exact wholeDot_rhs_col _ _

/-- The body's arithmetic at entry (p, q): the sum over k of x[p, k] · w[k, q] (the narrowing of the float format is the
    identity on the extended reals, and the accumulator is zero). -/
theorem payload_apply (x : Vec Ideal S4096x256 .f32) (w : Vec Ideal S256x256 .f32) (p : Fin 4096) (q : Fin 256) :
    k0_pay1 (F := Ideal) x w (ix2 p q) = ∑ k : Fin 256, x (ix2 p k) * w (ix2 k q) := by
  unfold k0_pay1
  refine (Ideal.matmul_constant_zero_apply dot_S4096x256_S256x256_S4096x256_1_0_0_1_n_n none _ _ (ix2 p q)).trans ?_
  rw [← Equiv.sum_comp (contrEquiv1 dot_S4096x256_S256x256_S4096x256_1_0_0_1_n_n 256 rfl rfl).symm]
  refine Finset.sum_congr rfl fun k _ => ?_
  obtain ⟨el, er⟩ := blockDot_idx p q k
  show x (dot_S4096x256_S256x256_S4096x256_1_0_0_1_n_n.lhsIdx (ix2 p q) _) * w (dot_S4096x256_S256x256_S4096x256_1_0_0_1_n_n.rhsIdx (ix2 p q) _) = _
  rw [el, er]

/-- The host's product of the whole arrays at entry (r, q): the same sum. -/
theorem dense_apply (x : Vec Ideal S262144x256 .f32) (w : Vec Ideal S256x256 .f32) (r : Fin 262144) (q : Fin 256) :
    Cert.GraphNet.dense (F := Ideal) x w (ix2 r q) = ∑ k : Fin 256, x (ix2 r k) * w (ix2 k q) := by
  unfold Cert.GraphNet.dense
  simp only [Host.dotGeneral]
  rw [Ideal.dotGeneral_apply, ← Equiv.sum_comp (contrEquiv1 Cert.ReferenceIdeal.dot_S262144x256_S256x256_S262144x256_1_0_0_1_n_n 256 rfl rfl).symm]
  refine Finset.sum_congr rfl fun k _ => ?_
  obtain ⟨el, er⟩ := wholeDot_idx r q k
  rw [el, er]

/-- What the body leaves in the output's staging buffer, at entry (p, q), from the two blocks it loaded. -/
theorem block_apply (x0 : Vec Ideal S4096x256 .f32) (x1 : Vec Ideal S256x256 .f32) (p : Fin 4096) (q : Fin 256) :
    out0_2 (F := Ideal) x0 x1 (ix2 p q) = ∑ k : Fin 256, x0 (ix2 p k) * x1 (ix2 k q) := by
  unfold out0_2
  rw [View.canon_unit_zero zeroOffsets]
  simp only [View.ld_unit_zero (S := S4096x256) zeroOffsets, View.ld_unit_zero (S := S256x256) zeroOffsets]
  exact payload_apply x0 x1 p q

end Products

/-! ## The windows' blocks as rows of the arrays -/

section Blocks
open ValueIdx

/-- Decided over the grid: the feature window and the output window sit at block row t, the weight window at the origin. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the feature block at point t is entry (4096·t + p, k) of the feature array. -/
theorem features_apply (c : Dev nD) (t : Fin cfg0.N) (p : Fin 4096) (k : Fin 256) (r : Fin 262144)
    (hr : r.val = t.val * 4096 + p.val) :
    (iblk0 V c 0 t : Vec Ideal S4096x256 .f32) (ix2 p k) = (V c main_arg0 : Vec Ideal S262144x256 .f32) (ix2 r k) := by
  obtain ⟨e0, e1, -, -, -, -⟩ := index_facts t
  unfold iblk0
  rw [View.read_apply]
  show V c main_arg0 _ = V c main_arg0 _
  congr 1
  funext a
  apply Fin.ext
  match a with
  | ⟨0, _⟩ => show win0_0.index t (0 : Fin 2) * 4096 + 1 * p.val = r.val; rw [e0, hr]; omega
  | ⟨1, _⟩ => show win0_0.index t (1 : Fin 2) * 256 + 1 * k.val = k.val; rw [e1]; omega

/-- The weight block at every point is the whole weight array. -/
theorem weights_apply (c : Dev nD) (t : Fin cfg0.N) (k q : Fin 256) :
    (iblk0 V c 1 t : Vec Ideal S256x256 .f32) (ix2 k q) = (V c main_arg4 : Vec Ideal S256x256 .f32) (ix2 k q) := by
  obtain ⟨-, -, e0, e1, -, -⟩ := index_facts t
  unfold iblk0
  rw [View.read_apply]
  show V c main_arg4 _ = V c main_arg4 _
  congr 1
  funext a
  apply Fin.ext
  match a with
  | ⟨0, _⟩ => show win0_1.index t (0 : Fin 2) * 256 + 1 * k.val = k.val; rw [e0]; omega
  | ⟨1, _⟩ => show win0_1.index t (1 : Fin 2) * 256 + 1 * q.val = q.val; rw [e1]; omega

/-- What point t writes back is block row t of the host's product of the two arrays as the region finds them. -/
theorem flushed_eq (c : Dev nD) (t : Fin cfg0.N) :
    (dat0 (F := Ideal) V c).flushed 2 t
      = ((cfg0.win 2).blk t).view.read (Elt Ideal) (Cert.GraphNet.dense (F := Ideal) (V c main_arg0) (V c main_arg4)) := by
  show (cfg0.win 2).cut (grid0.coords t) ((dat0 V c).after 2 t) = _
  rw [after0_2]
  obtain ⟨-, -, -, -, e0, e1⟩ := index_facts t
  have ht : t.val < 64 := lt_of_lt_of_eq t.isLt N_0
  funext j
  obtain ⟨p, q, rfl⟩ : ∃ (p : Fin 4096) (q : Fin 256), j = ix2 p q := ⟨j 0, j 1, eq_ix2 j⟩
  have hr : t.val * 4096 + p.val < 262144 := by have := p.isLt; omega
  have he : ((cfg0.win 2).blk t).view.emb (ix2 p q) = ix2 (⟨t.val * 4096 + p.val, hr⟩ : Fin 262144) q := by
    funext a
    apply Fin.ext
    match a with
    | ⟨0, _⟩ => show win0_2.index t (0 : Fin 2) * 4096 + 1 * p.val = t.val * 4096 + p.val; rw [e0]; omega
    | ⟨1, _⟩ => show win0_2.index t (1 : Fin 2) * 256 + 1 * q.val = q.val; rw [e1]; omega
  show out0_2 (iblk0 V c 0 t) (iblk0 V c 1 t) (ix2 p q)
    = Cert.GraphNet.dense (F := Ideal) (V c main_arg0) (V c main_arg4) (((cfg0.win 2).blk t).view.emb (ix2 p q))
  rw [he, dense_apply]
  refine (block_apply (iblk0 V c 0 t) (iblk0 V c 1 t) p q).trans ?_
  refine Finset.sum_congr rfl fun k _ => ?_
  rw [features_apply V c t p k ⟨t.val * 4096 + p.val, hr⟩ rfl, weights_apply V c t k q]

/-- An index of the result array is in point t's block iff each coordinate is in the block's range on its axis. -/
theorem mem_blk (t : Fin cfg0.N) (i : S262144x256.Idx) :
    i ∈ ((cfg0.win 2).blk t).view.set
      ↔ ∀ a : Fin 2, win0_2.index t a * S4096x256.size a ≤ (i a).val
          ∧ (i a).val < win0_2.index t a * S4096x256.size a + S4096x256.size a := by
  show i ∈ ((View.whole main_v31).slice (win0_2.rect t)).set ↔ _
  rw [View.set_slice_whole, Rect.mem_set_unit]
  exact Iff.rfl

/-- Row r of the result array lies in the block of point r / 4096, and every point writes its block back. -/
theorem covered (i : S262144x256.Idx) :
    ∃ t : Fin cfg0.N, (cfg0.win 2).flush t = true ∧ i ∈ ((cfg0.win 2).blk t).view.set := by
  have h0 : (i 0).val < 262144 := (i 0).isLt
  have h1 : (i 1).val < 256 := (i 1).isLt
  obtain ⟨t, ht⟩ : ∃ t : Fin cfg0.N, t.val = (i 0).val / 4096 :=
    ⟨⟨(i 0).val / 4096, by rw [show cfg0.N = 64 from N_0]; omega⟩, rfl⟩
  obtain ⟨-, -, -, -, e0, e1⟩ := index_facts t
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    rw [e0, ht]; omega
  | ⟨1, _⟩ =>
    show win0_2.index t (1 : Fin 2) * 256 ≤ (i 1).val ∧ (i 1).val < win0_2.index t (1 : Fin 2) * 256 + 256
    rw [e1]; omega

end Blocks

/-- After region 0 its output array is the host's product of the two argument arrays as the region finds them. -/
theorem value (c : Dev nD) :
    (dat0 (F := Ideal) V c).arrAt 2 cfg0.N = Cert.GraphNet.dense (F := Ideal) (V c main_arg0) (V c main_arg4) :=
  (dat0 (F := Ideal) V c).arrAt_eq_of_cover 2 _ (fun t _ => flushed_eq V c t) covered

end Cert.KernelIdeal.Dense0
end
-- ==== Proof.Dense2.lean ====
/-
  Region 2 multiplies the first layer's output by the second layer's weights, 4096 rows at a time.  At grid point t the
  body loads rows 4096·t … 4096·t + 4095 of the [262144, 256] hidden array (its block row t) and the whole [256, 256]
  weight array, recasts the block to its own shape (the identity), multiplies the two into a zero accumulator, and the
  pipeline writes the [4096, 256] product back as block row t of the result.  Over the extended reals a change of float
  format is the identity and a product into the zero accumulator is the plain sum  ∑ k, h[r, k] · w[k, c];  the host's
  product of the two whole arrays is the same sum at every index.  So block row t of the host's product is what point t
  writes back, and since row r lies in block row r / 4096 and the grid has 64 points, the blocks cover the array: the
  result array ends at the host's product.
-/
import proofs.«100892_j70695161692530_1_alg».proof.Proof.Gen.KernelIdeal.Frame
import proofs.«100892_j70695161692530_1_alg».proof.Proof.GraphNet
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Dense2
open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- The zero offsets of a whole-buffer access, as the constant function. -/
theorem zeroOffsets : (![0, 0] : Fin 2 → Nat) = fun _ => 0 :=
  funext fun a => by match a with | ⟨0, _⟩ => rfl | ⟨1, _⟩ => rfl

/-! ## The two products read at an index -/

section Products
open ValueIdx

/-- The left factor's row in the block product is the entry's row. -/
theorem blockDot_lhs_row (i : S4096x256.Idx) (κ : dot_S4096x256_S256x256_S4096x256_1_0_0_1_n_n.contr.Idx) :
    (dot_S4096x256_S256x256_S4096x256_1_0_0_1_n_n.lhsIdx i κ 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
/-- The right factor's column in the block product is the entry's column. -/
theorem blockDot_rhs_col (i : S4096x256.Idx) (κ : dot_S4096x256_S256x256_S4096x256_1_0_0_1_n_n.contr.Idx) :
    (dot_S4096x256_S256x256_S4096x256_1_0_0_1_n_n.rhsIdx i κ 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- In the block product, entry (p, q) pairs entry (p, k) of the left factor with entry (k, q) of the right. -/
theorem blockDot_idx (p : Fin 4096) (q k : Fin 256) :
    dot_S4096x256_S256x256_S4096x256_1_0_0_1_n_n.lhsIdx (ix2 p q)
        ((contrEquiv1 dot_S4096x256_S256x256_S4096x256_1_0_0_1_n_n 256 rfl rfl).symm k) = ix2 p k
    ∧ dot_S4096x256_S256x256_S4096x256_1_0_0_1_n_n.rhsIdx (ix2 p q)
        ((contrEquiv1 dot_S4096x256_S256x256_S4096x256_1_0_0_1_n_n 256 rfl rfl).symm k) = ix2 k q := by
  have hk := contrEquiv1_symm_val dot_S4096x256_S256x256_S4096x256_1_0_0_1_n_n 256 rfl rfl k
  refine ⟨funext fun a => Fin.ext ?_, funext fun a => Fin.ext ?_⟩
  · match a with
    | ⟨0, _⟩ => exact blockDot_lhs_row _ _
    | ⟨1, _⟩ => exact (dot_S4096x256_S256x256_S4096x256_1_0_0_1_n_n.lhsIdx_val_of_single rfl _ _).trans hk
  · match a with
    | ⟨0, _⟩ => exact (dot_S4096x256_S256x256_S4096x256_1_0_0_1_n_n.rhsIdx_val_of_single rfl _ _).trans hk
    | ⟨1, _⟩ => exact blockDot_rhs_col _ _

/-- The left factor's row in the host's product is the entry's row. -/
theorem wholeDot_lhs_row (i : S262144x256.Idx) (κ : Cert.ReferenceIdeal.dot_S262144x256_S256x256_S262144x256_1_0_0_1_n_n.contr.Idx) :
    (Cert.ReferenceIdeal.dot_S262144x256_S256x256_S262144x256_1_0_0_1_n_n.lhsIdx i κ 0).val = (i 0).val := by
  unfold DotDims.lhsIdx
  rw [dif_neg (show ¬(0 : Fin S262144x256.rank) ∈ Cert.ReferenceIdeal.dot_S262144x256_S256x256_S262144x256_1_0_0_1_n_n.lhsBatch by decide),
    dif_pos (show (0 : Fin S262144x256.rank) ∈ Cert.ReferenceIdeal.dot_S262144x256_S256x256_S262144x256_1_0_0_1_n_n.lhsNonContracting by decide)]
  rfl
/-- The right factor's column in the host's product is the entry's column. -/
theorem wholeDot_rhs_col (i : S262144x256.Idx) (κ : Cert.ReferenceIdeal.dot_S262144x256_S256x256_S262144x256_1_0_0_1_n_n.contr.Idx) :
    (Cert.ReferenceIdeal.dot_S262144x256_S256x256_S262144x256_1_0_0_1_n_n.rhsIdx i κ 1).val = (i 1).val := by
  unfold DotDims.rhsIdx
  rw [dif_neg (show ¬(1 : Fin S256x256.rank) ∈ Cert.ReferenceIdeal.dot_S262144x256_S256x256_S262144x256_1_0_0_1_n_n.rhsBatch by decide),
    dif_pos (show (1 : Fin S256x256.rank) ∈ Cert.ReferenceIdeal.dot_S262144x256_S256x256_S262144x256_1_0_0_1_n_n.rhsNonContracting by decide)]
  rfl

/-- The same pairing in the host's product of the whole arrays. -/
theorem wholeDot_idx (r : Fin 262144) (q k : Fin 256) :
    Cert.ReferenceIdeal.dot_S262144x256_S256x256_S262144x256_1_0_0_1_n_n.lhsIdx (ix2 r q)
        ((contrEquiv1 Cert.ReferenceIdeal.dot_S262144x256_S256x256_S262144x256_1_0_0_1_n_n 256 rfl rfl).symm k) = ix2 r k
    ∧ Cert.ReferenceIdeal.dot_S262144x256_S256x256_S262144x256_1_0_0_1_n_n.rhsIdx (ix2 r q)
        ((contrEquiv1 Cert.ReferenceIdeal.dot_S262144x256_S256x256_S262144x256_1_0_0_1_n_n 256 rfl rfl).symm k) = ix2 k q := by
  have hk := contrEquiv1_symm_val Cert.ReferenceIdeal.dot_S262144x256_S256x256_S262144x256_1_0_0_1_n_n 256 rfl rfl k
  refine ⟨funext fun a => Fin.ext ?_, funext fun a => Fin.ext ?_⟩
  · match a with
    | ⟨0, _⟩ => exact wholeDot_lhs_row _ _
    | ⟨1, _⟩ => exact (Cert.ReferenceIdeal.dot_S262144x256_S256x256_S262144x256_1_0_0_1_n_n.lhsIdx_val_of_single rfl _ _).trans hk
  · match a with
    | ⟨0, _⟩ => exact (Cert.ReferenceIdeal.dot_S262144x256_S256x256_S262144x256_1_0_0_1_n_n.rhsIdx_val_of_single rfl _ _).trans hk
    | ⟨1, _⟩ => exact wholeDot_rhs_col _ _

/-- The body's arithmetic at entry (p, q): the sum over k of x[p, k] · w[k, q] (the narrowing of the float format is the
    identity on the extended reals, so is the recast of the block to its own shape, and the accumulator is zero). -/
theorem payload_apply (x : Vec Ideal S4096x256 .f32) (w : Vec Ideal S256x256 .f32) (p : Fin 4096) (q : Fin 256) :
    k2_pay1 (F := Ideal) x w (ix2 p q) = ∑ k : Fin 256, x (ix2 p k) * w (ix2 k q) := by
  unfold k2_pay1
  simp only [shapeCast_self]
  refine (Ideal.matmul_constant_zero_apply dot_S4096x256_S256x256_S4096x256_1_0_0_1_n_n none _ _ (ix2 p q)).trans ?_
  rw [← Equiv.sum_comp (contrEquiv1 dot_S4096x256_S256x256_S4096x256_1_0_0_1_n_n 256 rfl rfl).symm]
  refine Finset.sum_congr rfl fun k _ => ?_
  obtain ⟨el, er⟩ := blockDot_idx p q k
  show x (dot_S4096x256_S256x256_S4096x256_1_0_0_1_n_n.lhsIdx (ix2 p q) _) * w (dot_S4096x256_S256x256_S4096x256_1_0_0_1_n_n.rhsIdx (ix2 p q) _) = _
  rw [el, er]

/-- The host's product of the whole arrays at entry (r, q): the same sum. -/
theorem dense_apply (x : Vec Ideal S262144x256 .f32) (w : Vec Ideal S256x256 .f32) (r : Fin 262144) (q : Fin 256) :
    Cert.GraphNet.dense (F := Ideal) x w (ix2 r q) = ∑ k : Fin 256, x (ix2 r k) * w (ix2 k q) := by
  unfold Cert.GraphNet.dense
  simp only [Host.dotGeneral]
  rw [Ideal.dotGeneral_apply, ← Equiv.sum_comp (contrEquiv1 Cert.ReferenceIdeal.dot_S262144x256_S256x256_S262144x256_1_0_0_1_n_n 256 rfl rfl).symm]
  refine Finset.sum_congr rfl fun k _ => ?_
  obtain ⟨el, er⟩ := wholeDot_idx r q k
  rw [el, er]

/-- What the body leaves in the output's staging buffer, at entry (p, q), from the two blocks it loaded. -/
theorem block_apply (x0 : Vec Ideal S4096x256 .f32) (x1 : Vec Ideal S256x256 .f32) (p : Fin 4096) (q : Fin 256) :
    out2_2 (F := Ideal) x0 x1 (ix2 p q) = ∑ k : Fin 256, x0 (ix2 p k) * x1 (ix2 k q) := by
  unfold out2_2
  rw [View.canon_unit_zero zeroOffsets]
  simp only [View.ld_unit_zero (S := S4096x256) zeroOffsets, View.ld_unit_zero (S := S256x256) zeroOffsets]
  exact payload_apply x0 x1 p q

end Products

/-! ## The windows' blocks as rows of the arrays -/

section Blocks
open ValueIdx

/-- Decided over the grid: the hidden-layer window and the output window sit at block row t, the weight window at the origin. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the hidden-layer block at point t is entry (4096·t + p, k) of the hidden-layer array. -/
theorem features_apply (c : Dev nD) (t : Fin cfg2.N) (p : Fin 4096) (k : Fin 256) (r : Fin 262144)
    (hr : r.val = t.val * 4096 + p.val) :
    (iblk2 V c 0 t : Vec Ideal S4096x256 .f32) (ix2 p k) = (V c main_v60 : Vec Ideal S262144x256 .f32) (ix2 r k) := by
  obtain ⟨e0, e1, -, -, -, -⟩ := index_facts t
  unfold iblk2
  rw [View.read_apply]
  show V c main_v60 _ = V c main_v60 _
  congr 1
  funext a
  apply Fin.ext
  match a with
  | ⟨0, _⟩ => show win2_0.index t (0 : Fin 2) * 4096 + 1 * p.val = r.val; rw [e0, hr]; omega
  | ⟨1, _⟩ => show win2_0.index t (1 : Fin 2) * 256 + 1 * k.val = k.val; rw [e1]; omega

/-- The weight block at every point is the whole weight array. -/
theorem weights_apply (c : Dev nD) (t : Fin cfg2.N) (k q : Fin 256) :
    (iblk2 V c 1 t : Vec Ideal S256x256 .f32) (ix2 k q) = (V c main_arg6 : Vec Ideal S256x256 .f32) (ix2 k q) := by
  obtain ⟨-, -, e0, e1, -, -⟩ := index_facts t
  unfold iblk2
  rw [View.read_apply]
  show V c main_arg6 _ = V c main_arg6 _
  congr 1
  funext a
  apply Fin.ext
  match a with
  | ⟨0, _⟩ => show win2_1.index t (0 : Fin 2) * 256 + 1 * k.val = k.val; rw [e0]; omega
  | ⟨1, _⟩ => show win2_1.index t (1 : Fin 2) * 256 + 1 * q.val = q.val; rw [e1]; omega

/-- What point t writes back is block row t of the host's product of the two arrays as the region finds them. -/
theorem flushed_eq (c : Dev nD) (t : Fin cfg2.N) :
    (dat2 (F := Ideal) V c).flushed 2 t
      = ((cfg2.win 2).blk t).view.read (Elt Ideal) (Cert.GraphNet.dense (F := Ideal) (V c main_v60) (V c main_arg6)) := by
  show (cfg2.win 2).cut (grid2.coords t) ((dat2 V c).after 2 t) = _
  rw [after2_2]
  obtain ⟨-, -, -, -, e0, e1⟩ := index_facts t
  have ht : t.val < 64 := lt_of_lt_of_eq t.isLt N_2
  funext j
  obtain ⟨p, q, rfl⟩ : ∃ (p : Fin 4096) (q : Fin 256), j = ix2 p q := ⟨j 0, j 1, eq_ix2 j⟩
  have hr : t.val * 4096 + p.val < 262144 := by have := p.isLt; omega
  have he : ((cfg2.win 2).blk t).view.emb (ix2 p q) = ix2 (⟨t.val * 4096 + p.val, hr⟩ : Fin 262144) q := by
    funext a
    apply Fin.ext
    match a with
    | ⟨0, _⟩ => show win2_2.index t (0 : Fin 2) * 4096 + 1 * p.val = t.val * 4096 + p.val; rw [e0]; omega
    | ⟨1, _⟩ => show win2_2.index t (1 : Fin 2) * 256 + 1 * q.val = q.val; rw [e1]; omega
  show out2_2 (iblk2 V c 0 t) (iblk2 V c 1 t) (ix2 p q)
    = Cert.GraphNet.dense (F := Ideal) (V c main_v60) (V c main_arg6) (((cfg2.win 2).blk t).view.emb (ix2 p q))
  rw [he, dense_apply]
  refine (block_apply (iblk2 V c 0 t) (iblk2 V c 1 t) p q).trans ?_
  refine Finset.sum_congr rfl fun k _ => ?_
  rw [features_apply V c t p k ⟨t.val * 4096 + p.val, hr⟩ rfl, weights_apply V c t k q]

/-- An index of the result array is in point t's block iff each coordinate is in the block's range on its axis. -/
theorem mem_blk (t : Fin cfg2.N) (i : S262144x256.Idx) :
    i ∈ ((cfg2.win 2).blk t).view.set
      ↔ ∀ a : Fin 2, win2_2.index t a * S4096x256.size a ≤ (i a).val
          ∧ (i a).val < win2_2.index t a * S4096x256.size a + S4096x256.size a := by
  show i ∈ ((View.whole main_v61).slice (win2_2.rect t)).set ↔ _
  rw [View.set_slice_whole, Rect.mem_set_unit]
  exact Iff.rfl

/-- Row r of the result array lies in the block of point r / 4096, and every point writes its block back. -/
theorem covered (i : S262144x256.Idx) :
    ∃ t : Fin cfg2.N, (cfg2.win 2).flush t = true ∧ i ∈ ((cfg2.win 2).blk t).view.set := by
  have h0 : (i 0).val < 262144 := (i 0).isLt
  have h1 : (i 1).val < 256 := (i 1).isLt
  obtain ⟨t, ht⟩ : ∃ t : Fin cfg2.N, t.val = (i 0).val / 4096 :=
    ⟨⟨(i 0).val / 4096, by rw [show cfg2.N = 64 from N_2]; omega⟩, rfl⟩
  obtain ⟨-, -, -, -, e0, e1⟩ := index_facts t
  refine ⟨t, flush2_2 t, ?_⟩
  rw [mem_blk]
  intro a
  match a with
  | ⟨0, _⟩ =>
    show win2_2.index t (0 : Fin 2) * 4096 ≤ (i 0).val ∧ (i 0).val < win2_2.index t (0 : Fin 2) * 4096 + 4096
    rw [e0, ht]; omega
  | ⟨1, _⟩ =>
    show win2_2.index t (1 : Fin 2) * 256 ≤ (i 1).val ∧ (i 1).val < win2_2.index t (1 : Fin 2) * 256 + 256
    rw [e1]; omega

end Blocks

/-- After region 2 its output array is the host's product of the two argument arrays as the region finds them. -/
theorem value (c : Dev nD) :
    (dat2 (F := Ideal) V c).arrAt 2 cfg2.N = Cert.GraphNet.dense (F := Ideal) (V c main_v60) (V c main_arg6) :=
  (dat2 (F := Ideal) V c).arrAt_eq_of_cover 2 _ (fun t _ => flushed_eq V c t) covered

end Cert.KernelIdeal.Dense2
end
-- ==== Proof.Hidden1.lean ====
/-
  The first layer's pointwise step, block by block of rows.  The result array [262144, 256] is cut in 128 blocks of
  2048 rows; at block `t` the step reads rows `2048 t … 2048 t + 2047` of the aggregated array `a` and of the edge
  embedding `e`, and the whole bias row `b` ([1, 256]), and leaves `max (a + b) 0 + e` entry by entry, the row spread over
  the 2048 rows of the block.  The specification spreads the same row over all 262144 rows.  Both read entry `(r, q)` as
  `max (a (r, q) + b (0, q)) 0 + e (r, q)` with the same zero, so no law of arithmetic is used: the two sides are the same
  operations on the same entries, and what is shown is that row `p` of block `t` is row `2048 t + p` of the array and that
  the 128 blocks fill it.
-/
import proofs.«100892_j70695161692530_1_alg».proof.Proof.Gen.KernelIdeal.Frame
import proofs.«100892_j70695161692530_1_alg».proof.Proof.GraphNet
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Hidden1
open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

open Idealize.ShloMosaic.ValueIdx
open Idealize.ShloMosaic.Pipeline (Dat)

/-- One entry of the step: `max (a + b) 0 + e`, the zero the float word `0`. -/
def cell (a b e : Ideal .f32) : Ideal .f32 :=
  FloatOps.addf (FloatOps.maximumf (FloatOps.addf a b) (FloatOps.ofBits .f32 0x00000000#32)) e

/-- The offsets `(0, 0)` of a whole-block access are zero on every axis. -/
theorem zeroOffsets : (![0, 0] : Fin 2 → Nat) = fun _ => 0 := funext fun a => by fin_cases a <;> rfl

/-- The bias row spread over the 2048 rows of a block reads, at `(p, q)`, the row at `(0, q)`. -/
theorem spreadBlock_apply (x1 : Vec Ideal S1x256 .f32) (p : Fin 2048) (q : Fin 256) :
    broadcastTo S2048x256 x1 broadcasts_S1x256_S2048x256 (ix2 p q) = x1 (ix2 (0 : Fin 1) q) :=
  broadcastTo_apply x1 _ _ _ fun a => by
    match a with
    | ⟨0, _⟩ => rfl
    | ⟨1, _⟩ => rfl

/-- The body's result at `(p, q)` of its block: `cell` of the two blocks at `(p, q)` and the row at `(0, q)`. -/
theorem payload_apply (x0 : Vec Ideal S2048x256 .f32) (x1 : Vec Ideal S1x256 .f32) (x2 : Vec Ideal S2048x256 .f32)
    (p : Fin 2048) (q : Fin 256) :
    k1_pay1 (F := Ideal) x0 x1 x2 (ix2 p q) = cell (x0 (ix2 p q)) (x1 (ix2 (0 : Fin 1) q)) (x2 (ix2 p q)) := by
  unfold k1_pay1
  simp only [shapeCast_self]
  show cell (x0 (ix2 p q)) (broadcastTo S2048x256 x1 broadcasts_S1x256_S2048x256 (ix2 p q)) (x2 (ix2 p q)) = _
  rw [spreadBlock_apply]

/-- The bias row spread over all 262144 rows reads, at `(r, q)`, the row at `(0, q)`. -/
theorem spreadArray_apply (b : Vec Ideal S1x256 .f32) (hb : S1x256.BroadcastsInDim S262144x256 (![0, 1] : Fin 2 → Fin 2))
    (r : Fin 262144) (q : Fin 256) :
    broadcastInDim S262144x256 ![0, 1] hb b (ix2 r q) = b (ix2 (0 : Fin 1) q) :=
  broadcastInDim_apply _ hb b _ _ fun a => by
    match a with
    | ⟨0, _⟩ => rfl
    | ⟨1, _⟩ => rfl

/-- The specification at `(r, q)`: `cell` of the two arrays at `(r, q)` and the row at `(0, q)`. -/
theorem hidden_apply (a : Vec Ideal S262144x256 .f32) (b : Vec Ideal S1x256 .f32) (e : Vec Ideal S262144x256 .f32)
    (r : Fin 262144) (q : Fin 256) :
    Cert.GraphNet.hidden (F := Ideal) a b e (ix2 r q) = cell (a (ix2 r q)) (b (ix2 (0 : Fin 1) q)) (e (ix2 r q)) := by
  unfold Cert.GraphNet.hidden
  show cell (a (ix2 r q)) (broadcastInDim S262144x256 ![0, 1] _ b (ix2 r q)) (e (ix2 r q)) = _
  rw [spreadArray_apply]

/-- A block's result at `(p, q)` is the specification at `(r, q)` of arrays that hold, at `(r, q)`, what the blocks hold
    at `(p, q)`, the row being the same row. -/
theorem block_cell (x0 : Vec Ideal S2048x256 .f32) (x1 : Vec Ideal S1x256 .f32) (x2 : Vec Ideal S2048x256 .f32)
    (a : Vec Ideal S262144x256 .f32) (b : Vec Ideal S1x256 .f32) (e : Vec Ideal S262144x256 .f32)
    (p : Fin 2048) (q : Fin 256) (r : Fin 262144)
    (h0 : x0 (ix2 p q) = a (ix2 r q)) (h1 : x1 = b) (h2 : x2 (ix2 p q) = e (ix2 r q)) :
    k1_pay1 (F := Ideal) x0 x1 x2 (ix2 p q) = Cert.GraphNet.hidden (F := Ideal) a b e (ix2 r q) := by
  rw [payload_apply, hidden_apply, h0, h1, h2]

/-- The printed index maps over the grid: the three row-blocked windows sit at block row `t`, column block 0; the row
    window at block (0, 0). -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The row window's block is the whole row at every point. -/
theorem rowBlock (c : Dev nD) (t : Fin cfg1.N) : iblk1 V c 1 t = V c main_v59 := by
  obtain ⟨-, -, e2, e3, -⟩ := blockIndex t
  funext k
  show V c main_v59 (((cfg1.win 1).blk t).view.emb k) = V c main_v59 k
  refine congrArg (V c main_v59) (funext fun a => Fin.ext ?_)
  match a with
  | ⟨0, _⟩ => show win1_1.index t (0 : Fin 2) * 1 + 1 * (k 0).val = (k 0).val; omega
  | ⟨1, _⟩ => show win1_1.index t (1 : Fin 2) * 256 + 1 * (k 1).val = (k 1).val; omega

/-- WHAT POINT `t` WRITES BACK is block `t` of the specification of the three arrays as the region finds them. -/
theorem flushed_eq (c : Dev nD) (t : Fin cfg1.N) :
    (dat1 V c).flushed 3 t
      = ((cfg1.win 3).blk t).view.read (Elt Ideal) (Cert.GraphNet.hidden (F := Ideal) (V c main_v44) (V c main_v59) (V c main_v58)) := by
  show (cfg1.win 3).cut (grid1.coords t) ((dat1 V c).after 3 t) = _
  rw [after1_3]
  unfold out1_3
  rw [View.canon_unit_zero zeroOffsets]
  simp only [View.ld_unit_zero (S := S2048x256) zeroOffsets, View.ld_unit_zero (S := S1x256) zeroOffsets]
  obtain ⟨e0, e1, -, -, e4, e5, e6, e7⟩ := blockIndex t
  have hN : cfg1.N = 128 := N_1
  have ht : t.val < 128 := hN ▸ t.isLt
  funext j
  obtain ⟨p, q, rfl⟩ : ∃ (p : Fin 2048) (q : Fin 256), j = ix2 p q := ⟨j 0, j 1, eq_ix2 j⟩
  have hr : 2048 * t.val + p.val < 262144 := by have := p.isLt; omega
  show k1_pay1 (F := Ideal) (iblk1 V c 0 t) (iblk1 V c 1 t) (iblk1 V c 2 t) (ix2 p q)
    = Cert.GraphNet.hidden (F := Ideal) (V c main_v44) (V c main_v59) (V c main_v58) (((cfg1.win 3).blk t).view.emb (ix2 p q))
  have hi : ((cfg1.win 3).blk t).view.emb (ix2 p q) = ix2 (⟨2048 * t.val + p.val, hr⟩ : Fin 262144) q := by
    funext a; apply Fin.ext
    match a with
    | ⟨0, _⟩ => show win1_3.index t (0 : Fin 2) * 2048 + 1 * p.val = 2048 * t.val + p.val; omega
    | ⟨1, _⟩ => show win1_3.index t (1 : Fin 2) * 256 + 1 * q.val = q.val; omega
  rw [hi]
  refine block_cell (iblk1 V c 0 t) (iblk1 V c 1 t) (iblk1 V c 2 t) (V c main_v44) (V c main_v59) (V c main_v58) p q
    ⟨2048 * t.val + p.val, hr⟩ ?_ (rowBlock V c t) ?_
  · show V c main_v44 (((cfg1.win 0).blk t).view.emb (ix2 p q)) = V c main_v44 (ix2 (⟨2048 * t.val + p.val, hr⟩ : Fin 262144) q)
    refine congrArg (V c main_v44) (funext fun a => Fin.ext ?_)
    match a with
    | ⟨0, _⟩ => show win1_0.index t (0 : Fin 2) * 2048 + 1 * p.val = 2048 * t.val + p.val; omega
    | ⟨1, _⟩ => show win1_0.index t (1 : Fin 2) * 256 + 1 * q.val = q.val; omega
  · show V c main_v58 (((cfg1.win 2).blk t).view.emb (ix2 p q)) = V c main_v58 (ix2 (⟨2048 * t.val + p.val, hr⟩ : Fin 262144) q)
    refine congrArg (V c main_v58) (funext fun a => Fin.ext ?_)
    match a with
    | ⟨0, _⟩ => show win1_2.index t (0 : Fin 2) * 2048 + 1 * p.val = 2048 * t.val + p.val; omega
    | ⟨1, _⟩ => show win1_2.index t (1 : Fin 2) * 256 + 1 * q.val = q.val; omega

/-- An index of the array is in point `t`'s block iff each coordinate is in the block's range on its axis. -/
theorem mem_block (t : Fin cfg1.N) (i : S262144x256.Idx) :
    i ∈ ((cfg1.win 3).blk t).view.set
      ↔ ∀ a : Fin 2, win1_3.index t a * S2048x256.size a ≤ (i a).val ∧ (i a).val < win1_3.index t a * S2048x256.size a + S2048x256.size a := by
  show i ∈ ((View.whole main_v60).slice (win1_3.rect t)).set ↔ _
  rw [View.set_slice_whole, Rect.mem_set_unit]
  exact Iff.rfl

/-- Row `r` of the array is in the block of point `r / 2048`, which is written back: the 128 blocks fill the array. -/
theorem covered (i : S262144x256.Idx) :
    ∃ t : Fin cfg1.N, (cfg1.win 3).flush t = true ∧ i ∈ ((cfg1.win 3).blk t).view.set := by
  have hN : cfg1.N = 128 := N_1
  have hi0 : (i 0).val < 262144 := (i 0).isLt
  have hi1 : (i 1).val < 256 := (i 1).isLt
  have ht : (i 0).val / 2048 < cfg1.N := by rw [hN]; omega
  obtain ⟨-, -, -, -, -, -, e6, e7⟩ := blockIndex ⟨(i 0).val / 2048, ht⟩
  refine ⟨⟨(i 0).val / 2048, ht⟩, flush1_3 _, ?_⟩
  rw [mem_block]
  intro a
  match a with
  | ⟨0, _⟩ =>
    show win1_3.index ⟨(i 0).val / 2048, ht⟩ (0 : Fin 2) * 2048 ≤ (i 0).val
      ∧ (i 0).val < win1_3.index ⟨(i 0).val / 2048, ht⟩ (0 : Fin 2) * 2048 + 2048
    rw [e6]; show (i 0).val / 2048 * 2048 ≤ (i 0).val ∧ (i 0).val < (i 0).val / 2048 * 2048 + 2048; omega
  | ⟨1, _⟩ =>
    show win1_3.index ⟨(i 0).val / 2048, ht⟩ (1 : Fin 2) * 256 ≤ (i 1).val
      ∧ (i 1).val < win1_3.index ⟨(i 0).val / 2048, ht⟩ (1 : Fin 2) * 256 + 256
    rw [e7]; omega

/-- After region 1 its output array is `relu (a + row) + e` of the three arrays as the region finds them. -/
theorem value (c : Dev nD) :
    (dat1 (F := Ideal) V c).arrAt 3 cfg1.N = Cert.GraphNet.hidden (F := Ideal) (V c main_v44) (V c main_v59) (V c main_v58) :=
  (dat1 V c).arrAt_eq_of_cover 3 (Cert.GraphNet.hidden (F := Ideal) (V c main_v44) (V c main_v59) (V c main_v58))
    (fun t _ => flushed_eq V c t) covered

end Cert.KernelIdeal.Hidden1

end
-- ==== Proof.Classify3Row.lean ====
import proofs.«100892_j70695161692530_1_alg».proof.Proof.Gen.KernelIdeal.Frame
import proofs.«100892_j70695161692530_1_alg».proof.Proof.GraphNet
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Classify3
open Idealize.ShloMosaic Idealize.ShloMosaic.TcCoe Idealize.SL.Sem Cert.KernelIdeal Cert.KernelIdeal.Gen
open Idealize.ShloMosaic.ValueIdx
open scoped BigOperators

/-! # The classifier on one node's row, and both programs read at an entry

On a `[4096, 256]` block of node features `a` the classifier region computes `relu ((a + b2) · W1 + b1) · W2 + cb2`,
with the bias rows `[1, 256]`, `[1, 128]`, `[1, 2]` and the weights `[256, 128]`, `[128, 2]`; the specification computes
the same expression on the whole `[262144, 256]` array. A matrix product is taken row by row: entry `(r, j)` of `x · W`
is `∑ k, x (r, k) * W (k, j)`, which involves row `r` of `x` only, and the additions, the maximum with zero and the bias
rows act entry by entry. So each side, read at a row and an output, is one function `cls` of that row of the features
and of the parameters. At the ideal values a change of float format is the identity and a product accumulated into zero
is the plain sum, so no rounding enters and no finiteness is needed. -/

/-! ## A product of two matrices read at an entry -/

/-- The sum a rank-two product takes over its one contracted axis, re-indexed by that axis's coordinate: entry
    `(p, q)` is `∑ k, l (p, k) * r (k, q)`. The four hypotheses say which coordinate of each operand index comes
    from the entry and which from the contraction position. -/
theorem contraction_sum {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- For a record contracting the left operand's axis 1 with the right's axis 0, the other two coordinates of
    the operand indices are the entry's: the definition's case analysis on concrete axis lists. -/
local macro "entry_coordinate" : tactic => `(tactic| (
  intro i q
  first | unfold DotDims.lhsIdx | unfold DotDims.rhsIdx
  split
  · rename_i h; exact absurd h (by decide)
  · split
    · rfl
    · rename_i h; exact absurd (by decide) h))

/-- Entry `(p, q)` of the first block product, a `[4096,256] × [256,128]` matmul into the zero accumulator. -/
theorem blockProduct1_apply (l : FVec Ideal S4096x256 .bf16) (r : FVec Ideal S256x128 .bf16) (p : Fin 4096) (q : Fin 128) :
    matmul (F := Ideal) dot_S4096x256_S256x128_S4096x128_1_0_0_1_n_n none l r (constant S4096x128 .f32 0x00000000#32) (ix2 p q)
      = ∑ k : Fin 256, l (ix2 p k) * r (ix2 k q) :=
  (Ideal.matmul_constant_zero_apply _ none l r (ix2 p q)).trans
    (contraction_sum dot_S4096x256_S256x128_S4096x128_1_0_0_1_n_n rfl rfl (by entry_coordinate)
      (fun i q => DotDims.lhsIdx_val_of_single _ rfl i q) (fun i q => DotDims.rhsIdx_val_of_single _ rfl i q)
      (by entry_coordinate) l r p q)

/-- Entry `(p, q)` of the second block product, `[4096,128] × [128,2]`. -/
theorem blockProduct2_apply (l : FVec Ideal S4096x128 .bf16) (r : FVec Ideal S128x2 .bf16) (p : Fin 4096) (q : Fin 2) :
    matmul (F := Ideal) dot_S4096x128_S128x2_S4096x2_1_0_0_1_n_n none l r (constant S4096x2 .f32 0x00000000#32) (ix2 p q)
      = ∑ k : Fin 128, l (ix2 p k) * r (ix2 k q) :=
  (Ideal.matmul_constant_zero_apply _ none l r (ix2 p q)).trans
    (contraction_sum dot_S4096x128_S128x2_S4096x2_1_0_0_1_n_n rfl rfl (by entry_coordinate)
      (fun i q => DotDims.lhsIdx_val_of_single _ rfl i q) (fun i q => DotDims.rhsIdx_val_of_single _ rfl i q)
      (by entry_coordinate) l r p q)

/-- Entry `(p, q)` of the host's first product over the whole arrays, `[262144,256] × [256,128]`. -/
theorem wholeProduct1_apply (l : FVec Ideal Cert.ReferenceIdeal.S262144x256 .f32) (r : FVec Ideal Cert.ReferenceIdeal.S256x128 .f32)
    (p : Fin 262144) (q : Fin 128) :
    Host.dotGeneral (F := Ideal) Cert.ReferenceIdeal.dot_S262144x256_S256x128_S262144x128_1_0_0_1_n_n none l r (ix2 p q)
      = ∑ k : Fin 256, l (ix2 p k) * r (ix2 k q) :=
  (Ideal.dotGeneral_apply _ none .single l r (ix2 p q)).trans
    (contraction_sum Cert.ReferenceIdeal.dot_S262144x256_S256x128_S262144x128_1_0_0_1_n_n rfl rfl (by entry_coordinate)
      (fun i q => DotDims.lhsIdx_val_of_single _ rfl i q) (fun i q => DotDims.rhsIdx_val_of_single _ rfl i q)
      (by entry_coordinate) l r p q)

/-- Entry `(p, q)` of the host's second product, `[262144,128] × [128,2]`. -/
theorem wholeProduct2_apply (l : FVec Ideal Cert.ReferenceIdeal.S262144x128 .f32) (r : FVec Ideal Cert.ReferenceIdeal.S128x2 .f32)
    (p : Fin 262144) (q : Fin 2) :
    Host.dotGeneral (F := Ideal) Cert.ReferenceIdeal.dot_S262144x128_S128x2_S262144x2_1_0_0_1_n_n none l r (ix2 p q)
      = ∑ k : Fin 128, l (ix2 p k) * r (ix2 k q) :=
  (Ideal.dotGeneral_apply _ none .single l r (ix2 p q)).trans
    (contraction_sum Cert.ReferenceIdeal.dot_S262144x128_S128x2_S262144x2_1_0_0_1_n_n rfl rfl (by entry_coordinate)
      (fun i q => DotDims.lhsIdx_val_of_single _ rfl i q) (fun i q => DotDims.rhsIdx_val_of_single _ rfl i q)
      (by entry_coordinate) l r p q)

/-! ## The classifier on one node's row -/

/-- The classifier applied to one node's 256 features `a`: `relu ((a + b2) · W1 + b1) · W2 + cb2` at output `j`.
    The relu's zero stays the literal word both programs write. -/
def cls (a b2 : Fin 256 → EReal) (W1 : Fin 256 → Fin 128 → EReal) (b1 : Fin 128 → EReal)
    (W2 : Fin 128 → Fin 2 → EReal) (cb2 : Fin 2 → EReal) (j : Fin 2) : EReal :=
  (∑ k2 : Fin 128, max ((∑ k1 : Fin 256, (a k1 + b2 k1) * W1 k1 k2) + b1 k2) (Ideal.ofBits .f32 0x00000000#32) * W2 k2 j) + cb2 j

/-- What the body computes from its six blocks, at row `p` of the block and output `q`: the classifier on row `p` of
    the feature block. Changing the float format does nothing to an ideal value, and each matmul into zero is the plain sum. -/
theorem payload_apply (x0 : Vec Ideal S4096x256 .f32) (x1 : Vec Ideal S1x256 .f32) (x2 : Vec Ideal S256x128 .f32)
    (x3 : Vec Ideal S1x128 .f32) (x4 : Vec Ideal S128x2 .f32) (x5 : Vec Ideal S1x2 .f32) (p : Fin 4096) (q : Fin 2) :
    k3_pay1 (F := Ideal) x0 x1 x2 x3 x4 x5 (ix2 p q)
      = cls (fun k => x0 (ix2 p k)) (fun k => x1 (ix2 (0 : Fin 1) k)) (fun k k' => x2 (ix2 k k'))
          (fun k => x3 (ix2 (0 : Fin 1) k)) (fun k k' => x4 (ix2 k k')) (fun k => x5 (ix2 (0 : Fin 1) k)) q := by
  unfold k3_pay1 cls
  simp only [addf_apply, maximumf_apply, truncf_apply, shapeCast_self, blockProduct1_apply, blockProduct2_apply,
    broadcastTo_1b_ab_apply, broadcast_apply]
  rfl

/-- A `[1, b]` row broadcast by the host along the rows of an `[a, b]` array reads, at `(p, c)`, the row at `c`. -/
theorem hostRow_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The three bias rows of the specification, each read at `(p, c)`. -/
theorem hostRow256_apply (v : FVec Ideal Cert.ReferenceIdeal.S1x256 .f32) (p : Fin 262144) (c : Fin 256) :
    broadcastInDim Cert.ReferenceIdeal.S262144x256 ![0, 1] Cert.ReferenceIdeal.Gen.bcast_S1x256_S262144x256_0_1 v (ix2 p c)
      = v (ix2 (0 : Fin 1) c) := hostRow_apply v _ p c
theorem hostRow128_apply (v : FVec Ideal Cert.ReferenceIdeal.S1x128 .f32) (p : Fin 262144) (c : Fin 128) :
    broadcastInDim Cert.ReferenceIdeal.S262144x128 ![0, 1] Cert.ReferenceIdeal.Gen.bcast_S1x128_S262144x128_0_1 v (ix2 p c)
      = v (ix2 (0 : Fin 1) c) := hostRow_apply v _ p c
theorem hostRow2_apply (v : FVec Ideal Cert.ReferenceIdeal.S1x2 .f32) (p : Fin 262144) (c : Fin 2) :
    broadcastInDim Cert.ReferenceIdeal.S262144x2 ![0, 1] Cert.ReferenceIdeal.Gen.bcast_S1x2_S262144x2_0_1 v (ix2 p c)
      = v (ix2 (0 : Fin 1) c) := hostRow_apply v _ p c

/-- The host's splat of the zero word reads that word at every entry. -/
theorem hostZeros_apply (p : Fin 262144) (c : Fin 128) :
    broadcastInDim Cert.ReferenceIdeal.S262144x128 ![] Cert.ReferenceIdeal.Gen.bcast_S_S262144x128
      (constant (F := Ideal) Cert.ReferenceIdeal.S_ .f32 0x00000000#32) (ix2 p c) = Ideal.ofBits .f32 0x00000000#32 := rfl

/-- The specification read at node `r` and output `j`: the classifier on row `r` of the feature array, the host's two
    products over the whole arrays being the same sums row by row. -/
theorem classify_apply (a : Vec Ideal Cert.ReferenceIdeal.S262144x256 .f32) (b2row : Vec Ideal Cert.ReferenceIdeal.S1x256 .f32)
    (cW1 : Vec Ideal Cert.ReferenceIdeal.S256x128 .f32) (cb1row : Vec Ideal Cert.ReferenceIdeal.S1x128 .f32)
    (cW2 : Vec Ideal Cert.ReferenceIdeal.S128x2 .f32) (cb2row : Vec Ideal Cert.ReferenceIdeal.S1x2 .f32) (r : Fin 262144) (j : Fin 2) :
    Cert.GraphNet.classify (F := Ideal) a b2row cW1 cb1row cW2 cb2row (ix2 r j)
      = cls (fun k => a (ix2 r k)) (fun k => b2row (ix2 (0 : Fin 1) k)) (fun k k' => cW1 (ix2 k k'))
          (fun k => cb1row (ix2 (0 : Fin 1) k)) (fun k k' => cW2 (ix2 k k')) (fun k => cb2row (ix2 (0 : Fin 1) k)) j := by
  unfold Cert.GraphNet.classify cls
  simp only [addf_apply, maximumf_apply, wholeProduct1_apply, wholeProduct2_apply]
  rw [hostRow2_apply]
  refine congrArg (fun s => s + cb2row (ix2 (0 : Fin 1) j)) (Finset.sum_congr rfl fun x _ => ?_)
  rw [hostRow128_apply, hostZeros_apply]
  refine congrArg (fun s => max (s + cb1row (ix2 (0 : Fin 1) x)) (Ideal.ofBits .f32 0x00000000#32) * cW2 (ix2 x j))
    (Finset.sum_congr rfl fun k _ => ?_)
  rw [hostRow256_apply]

end Cert.KernelIdeal.Classify3
end
-- ==== Proof.Classify3.lean ====
import proofs.«100892_j70695161692530_1_alg».proof.Proof.Gen.KernelIdeal.Frame
import proofs.«100892_j70695161692530_1_alg».proof.Proof.GraphNet
import proofs.«100892_j70695161692530_1_alg».proof.Proof.Classify3Row
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Classify3
open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

open Idealize.ShloMosaic.ValueIdx
open scoped BigOperators

/-! # The classifier region: its output array is the specification's classifier

The region runs over 64 grid points. At point `t` the feature window holds rows `4096 t … 4096 t + 4095` of the
`[262144, 256]` feature array and the output window the same rows of the `[262144, 2]` output array; the five parameter
windows hold their whole arrays at every point. The body's result on a block and the specification on the whole arrays
are the same function of a node's row (the products are taken row by row), so what point `t` writes back is block `t`
of the specification. Row `r` of the array is row `r mod 4096` of block `r / 4096`, and the 64 blocks tile the output. -/

theorem zeroOffsets : (![0, 0] : Fin 2 → Nat) = fun _ => 0 := funext fun a => by fin_cases a <;> rfl

/-- What the body leaves in the output block, at row `p` and output `q`: the classifier on row `p` of the feature block
    (its one store covers the block, and each load reads a whole block). -/
theorem block_apply (x0 : Vec Ideal S4096x256 .f32) (x1 : Vec Ideal S1x256 .f32) (x2 : Vec Ideal S256x128 .f32)
    (x3 : Vec Ideal S1x128 .f32) (x4 : Vec Ideal S128x2 .f32) (x5 : Vec Ideal S1x2 .f32) (p : Fin 4096) (q : Fin 2) :
    out3_6 (F := Ideal) x0 x1 x2 x3 x4 x5 (ix2 p q)
      = cls (fun k => x0 (ix2 p k)) (fun k => x1 (ix2 (0 : Fin 1) k)) (fun k k' => x2 (ix2 k k'))
          (fun k => x3 (ix2 (0 : Fin 1) k)) (fun k k' => x4 (ix2 k k')) (fun k => x5 (ix2 (0 : Fin 1) k)) q := by
  unfold out3_6
  rw [View.canon_unit_zero zeroOffsets]
  simp only [View.ld_unit_zero (S := S4096x256) zeroOffsets, View.ld_unit_zero (S := S1x256) zeroOffsets,
    View.ld_unit_zero (S := S256x128) zeroOffsets, View.ld_unit_zero (S := S1x128) zeroOffsets,
    View.ld_unit_zero (S := S128x2) zeroOffsets, View.ld_unit_zero (S := S1x2) zeroOffsets]
  exact payload_apply x0 x1 x2 x3 x4 x5 p q

/-- The printed index maps over the 64 points: the feature and output windows are at block row `t`, column block `0`;
    the parameter windows at block `(0, 0)`. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `p` of the feature block at point `t` is row `4096 t + p` of the feature array. -/
theorem features_read (c : Dev nD) (t : Fin cfg3.N) (p : Fin 4096) (k : Fin 256) (r : Fin 262144)
    (hr : r.val = t.val * 4096 + p.val) :
    (iblk3 V c 0 t : Vec Ideal S4096x256 .f32) (ix2 p k) = (V c main_v74 : Vec Ideal S262144x256 .f32) (ix2 r k) := by
  obtain ⟨e0, e1, -⟩ := index_facts t
  show V c main_v74 (((cfg3.win 0).blk t).view.emb (ix2 p k)) = V c main_v74 (ix2 r k)
  refine congrArg (V c main_v74) (funext fun a => Fin.ext ?_)
  match a with
  | ⟨0, _⟩ => show win3_0.index t (0 : Fin 2) * 4096 + 1 * p.val = r.val; omega
  | ⟨1, _⟩ => show win3_0.index t (1 : Fin 2) * 256 + 1 * k.val = k.val; omega

/-- Each parameter window's block, at every point, is its whole array. -/
theorem bias2_read (c : Dev nD) (t : Fin cfg3.N) : (iblk3 V c 1 t : Vec Ideal S1x256 .f32) = V c main_v75 := by
  obtain ⟨-, -, e0, e1, -⟩ := index_facts t
  funext y
  show V c main_v75 (((cfg3.win 1).blk t).view.emb y) = V c main_v75 y
  refine congrArg (V c main_v75) (funext fun a => Fin.ext ?_)
  match a with
  | ⟨0, _⟩ => show win3_1.index t (0 : Fin 2) * 1 + 1 * (y 0).val = (y 0).val; omega
  | ⟨1, _⟩ => show win3_1.index t (1 : Fin 2) * 256 + 1 * (y 1).val = (y 1).val; omega
theorem weights1_read (c : Dev nD) (t : Fin cfg3.N) : (iblk3 V c 2 t : Vec Ideal S256x128 .f32) = V c main_arg8 := by
  obtain ⟨-, -, -, -, e0, e1, -⟩ := index_facts t
  funext y
  show V c main_arg8 (((cfg3.win 2).blk t).view.emb y) = V c main_arg8 y
  refine congrArg (V c main_arg8) (funext fun a => Fin.ext ?_)
  match a with
  | ⟨0, _⟩ => show win3_2.index t (0 : Fin 2) * 256 + 1 * (y 0).val = (y 0).val; omega
  | ⟨1, _⟩ => show win3_2.index t (1 : Fin 2) * 128 + 1 * (y 1).val = (y 1).val; omega
theorem bias1_read (c : Dev nD) (t : Fin cfg3.N) : (iblk3 V c 3 t : Vec Ideal S1x128 .f32) = V c main_v76 := by
  obtain ⟨-, -, -, -, -, -, e0, e1, -⟩ := index_facts t
  funext y
  show V c main_v76 (((cfg3.win 3).blk t).view.emb y) = V c main_v76 y
  refine congrArg (V c main_v76) (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega
theorem weights2_read (c : Dev nD) (t : Fin cfg3.N) : (iblk3 V c 4 t : Vec Ideal S128x2 .f32) = V c main_arg10 := by
  obtain ⟨-, -, -, -, -, -, -, -, e0, e1, -⟩ := index_facts t
  funext y
  show V c main_arg10 (((cfg3.win 4).blk t).view.emb y) = V c main_arg10 y
  refine congrArg (V c main_arg10) (funext fun a => Fin.ext ?_)
  match a with
  | ⟨0, _⟩ => show win3_4.index t (0 : Fin 2) * 128 + 1 * (y 0).val = (y 0).val; omega
  | ⟨1, _⟩ => show win3_4.index t (1 : Fin 2) * 2 + 1 * (y 1).val = (y 1).val; omega
theorem bias3_read (c : Dev nD) (t : Fin cfg3.N) : (iblk3 V c 5 t : Vec Ideal S1x2 .f32) = V c main_v77 := by
  obtain ⟨-, -, -, -, -, -, -, -, -, -, e0, e1, -⟩ := index_facts t
  funext y
  show V c main_v77 (((cfg3.win 5).blk t).view.emb y) = V c main_v77 y
  refine congrArg (V c main_v77) (funext fun a => Fin.ext ?_)
  match a with
  | ⟨0, _⟩ => show win3_5.index t (0 : Fin 2) * 1 + 1 * (y 0).val = (y 0).val; omega
  | ⟨1, _⟩ => show win3_5.index t (1 : Fin 2) * 2 + 1 * (y 1).val = (y 1).val; omega

/-- What point `t` writes back is block `t` of the specification on the arrays as the region finds them. -/
theorem flushed_eq (c : Dev nD) (t : Fin cfg3.N) :
    (dat3 (F := Ideal) V c).flushed 6 t = ((cfg3.win 6).blk t).view.read (Elt Ideal)
      (Cert.GraphNet.classify (F := Ideal) (V c main_v74) (V c main_v75) (V c main_arg8) (V c main_v76) (V c main_arg10) (V c main_v77)) := by
  show (cfg3.win 6).cut (grid3.coords t) ((dat3 V c).after 6 t) = _
  rw [after3_6, bias2_read V c t, weights1_read V c t, bias1_read V c t, weights2_read V c t, bias3_read V c t]
  obtain ⟨-, -, -, -, -, -, -, -, -, -, -, -, e0, e1⟩ := index_facts t
  have hN : t.val < 64 := Nat.lt_of_lt_of_eq t.isLt N_3
  funext y
  obtain ⟨p, q, rfl⟩ : ∃ (p : Fin 4096) (q : Fin 2), y = ix2 p q := ⟨y 0, y 1, eq_ix2 y⟩
  have hrow : t.val * 4096 + p.val < 262144 := by have := p.isLt; omega
  have hemb : ((cfg3.win 6).blk t).view.emb (ix2 p q) = ix2 (⟨t.val * 4096 + p.val, hrow⟩ : Fin 262144) q :=
    funext fun a => Fin.ext (by
      match a with
      | ⟨0, _⟩ => show win3_6.index t (0 : Fin 2) * 4096 + 1 * p.val = t.val * 4096 + p.val; omega
      | ⟨1, _⟩ => show win3_6.index t (1 : Fin 2) * 2 + 1 * q.val = q.val; omega)
  show out3_6 (iblk3 V c 0 t) (V c main_v75) (V c main_arg8) (V c main_v76) (V c main_arg10) (V c main_v77) (ix2 p q)
    = Cert.GraphNet.classify (F := Ideal) (V c main_v74) (V c main_v75) (V c main_arg8) (V c main_v76) (V c main_arg10)
        (V c main_v77) (((cfg3.win 6).blk t).view.emb (ix2 p q))
  rw [hemb, classify_apply]
  refine (block_apply (iblk3 V c 0 t) (V c main_v75) (V c main_arg8) (V c main_v76) (V c main_arg10) (V c main_v77) p q).trans ?_
  exact congrArg (fun f => cls f _ _ _ _ _ q) (funext fun k => features_read V c t p k ⟨t.val * 4096 + p.val, hrow⟩ rfl)

/-- A node of the output array is in point `t`'s block iff each coordinate is in the block's range on its axis. -/
theorem mem_blk (t : Fin cfg3.N) (i : S262144x2.Idx) :
    i ∈ ((cfg3.win 6).blk t).view.set ↔ ∀ a : Fin 2, win3_6.index t a * S4096x2.size a ≤ (i a).val
      ∧ (i a).val < win3_6.index t a * S4096x2.size a + S4096x2.size a := by
  show i ∈ ((View.whole main_v78).slice (win3_6.rect t)).set ↔ _
  rw [View.set_slice_whole, Rect.mem_set_unit]
  exact Iff.rfl

/-- Every node's row is written back: row `r` lies in the block of point `r / 4096`. -/
theorem cover (i : S262144x2.Idx) :
    ∃ t : Fin cfg3.N, (cfg3.win 6).flush t = true ∧ i ∈ ((cfg3.win 6).blk t).view.set := by
  have hi0 : (i 0).val < 262144 := (i 0).isLt
  have hi1 : (i 1).val < 2 := (i 1).isLt
  obtain ⟨t, ht⟩ : ∃ t : Fin cfg3.N, t.val = (i 0).val / 4096 :=
    ⟨⟨(i 0).val / 4096, Nat.lt_of_lt_of_eq (by omega : (i 0).val / 4096 < 64) N_3.symm⟩, rfl⟩
  obtain ⟨-, -, -, -, -, -, -, -, -, -, -, -, e0, e1⟩ := index_facts t
  refine ⟨t, flush3_6 t, ?_⟩
  rw [mem_blk]
  intro a
  match a with
  | ⟨0, _⟩ =>
    show win3_6.index t (0 : Fin 2) * 4096 ≤ (i 0).val ∧ (i 0).val < win3_6.index t (0 : Fin 2) * 4096 + 4096
    omega
  | ⟨1, _⟩ =>
    show win3_6.index t (1 : Fin 2) * 2 ≤ (i 1).val ∧ (i 1).val < win3_6.index t (1 : Fin 2) * 2 + 2
    omega

/-- After region 3 its output array is the classifier of the six arrays as the region finds them. -/
theorem value (c : Dev nD) :
    (dat3 (F := Ideal) V c).arrAt 6 cfg3.N
      = Cert.GraphNet.classify (F := Ideal) (V c main_v74) (V c main_v75) (V c main_arg8) (V c main_v76) (V c main_arg10) (V c main_v77) :=
  (dat3 V c).arrAt_eq_of_cover 6 _ (fun t _ => flushed_eq V c t) (fun i => cover i)

end Cert.KernelIdeal.Classify3
end
-- ==== Proof.Rows.lean ====
/-
  A bias vector as a row.  A bias `b` of length `n` enters each dense layer as the `[1, n]` array whose entry
  `(0, j)` is `b j`.  One program makes that array by reshaping `[n]` to `[1, n]` (the same elements in row-major
  order: position `0 * n + j = j`), the other by broadcasting `b` along a new leading axis of extent one (entry
  `(u, j)` reads `b` at the coordinate of the axis the broadcast keeps, `j`).  Both read `b j` at `(u, j)`, so the
  two rows are the same array.
-/
import proofs.«100892_j70695161692530_1_alg».proof.KernelIdeal
import proofs.«100892_j70695161692530_1_alg».proof.Proof.Gen.KernelIdeal
import proofs.«100892_j70695161692530_1_alg».proof.Proof.GraphNet
import Idealize.ShloMosaic.Lib.ValueIdx
import Idealize.ShloMosaic.Lib.ValueLayout
import Idealize.ShloMosaic.Lib.Pipeline.Value

noncomputable section
namespace Cert.KernelIdeal.Rows
open Idealize.ShloMosaic Cert.KernelIdeal Cert.KernelIdeal.Gen
open Idealize.ShloMosaic.ValueIdx

/-- A length-`n` vector broadcast along a new leading unit axis reads, at `(u, j)`, the vector at `j`. -/
theorem broadcastRow_apply {n : ℕ} (x : (⟨1, ![n]⟩ : Shape).Idx → Ideal .f32)
    (h : (⟨1, ![n]⟩ : Shape).BroadcastsInDim ⟨2, ![1, n]⟩ (![1] : Fin 1 → Fin 2)) (hn : n ≠ 1) (u : Fin 1) (j : Fin n) :
    broadcastInDim ⟨2, ![1, n]⟩ (![1] : Fin 1 → Fin 2) h x (ix2 u j) = x (ix1 j) :=
  broadcastInDim_apply _ h x _ _ fun a => by
    match a with
    | ⟨0, _⟩ =>
      show j.val = if n = 1 then 0 else j.val
      rw [if_neg hn]

/-- The reshape of a length-`n` vector to `[1, n]` and its broadcast along a new leading axis are the same row. -/
theorem reshape_eq_broadcastRow {n : ℕ} (x : (⟨1, ![n]⟩ : Shape).Idx → Ideal .f32)
    (hc : (⟨1, ![n]⟩ : Shape).ShapeCasts ⟨2, ![1, n]⟩)
    (hb : (⟨1, ![n]⟩ : Shape).BroadcastsInDim ⟨2, ![1, n]⟩ (![1] : Fin 1 → Fin 2)) (hn : n ≠ 1) :
    shapeCast ⟨2, ![1, n]⟩ x hc = broadcastInDim ⟨2, ![1, n]⟩ (![1] : Fin 1 → Fin 2) hb x := by
  funext i
  obtain ⟨u, j, rfl⟩ : ∃ (u : Fin 1) (j : Fin n), i = ix2 u j := ⟨i 0, i 1, eq_ix2 i⟩
  exact (shapeCast_a_1a_apply x hc u j).trans (broadcastRow_apply x hb hn u j).symm

/-- The 256-wide bias row: the reshape is the broadcast. -/
theorem row256_eq (b : Vec Ideal S256 .f32) : shapeCast S1x256 b shapeCasts_S256_S1x256 = Cert.GraphNet.row256 (F := Ideal) b :=
  reshape_eq_broadcastRow b _ _ (by decide)

/-- The 128-wide bias row: the reshape is the broadcast. -/
theorem row128_eq (b : Vec Ideal S128 .f32) : shapeCast S1x128 b shapeCasts_S128_S1x128 = Cert.GraphNet.row128 (F := Ideal) b :=
  reshape_eq_broadcastRow b _ _ (by decide)

/-- The 2-wide bias row: the reshape is the broadcast. -/
theorem row2_eq (b : Vec Ideal S2 .f32) : shapeCast S1x2 b shapeCasts_S2_S1x2 = Cert.GraphNet.row2 (F := Ideal) b :=
  reshape_eq_broadcastRow b _ _ (by decide)

end Cert.KernelIdeal.Rows

end
-- ==== Proof.lean ====
/-
  The certificate of a two-layer graph network with a two-layer classifier (262144 nodes, 262144 edges plus self
  loops, 256 features, 64 relation types, 2 classes): the kernel program runs its dense pieces — `x · W1`, the
  pointwise `relu (· + b1) + embedding`, `· W2`, the classifier — as four kernel regions over row blocks, between host
  operations that gather along the edges and scatter-add into the nodes; the reference runs everything on the host.
  Both compute `Cert.GraphNet.out` of the twelve argument arrays (Proof/GraphNet.lean):
    * the reference's composed term IS that function, once its named pieces are unfolded (Proof/RefNet.lean over the
      reference's run, Proof/RefRun.lean);
    * the kernel program's result array is read back through @main's nine segments (Proof/Fold.lean, over the run that
      names every buffer at the last boundary, Proof/KernelRun.lean); a region's output array is the host operation of
      its input arrays: a block matmul into a zero accumulator is row by row the whole arrays' `dot_general`, the same
      finite sum at the extended reals (Proof/Dense0.lean, Proof/Dense2.lean, Proof/Classify3Row.lean,
      Proof/Classify3.lean), the pointwise region is the same operations index by index (Proof/Hidden1.lean), and a bias
      reshaped to a row is the bias broadcast to a row (Proof/Rows.lean).
  No law of the extended reals beyond reading both sides as the same sums is used, so the precondition (finite inputs)
  is never opened.  The ideal pass rewrote nothing: `preserves` is `True`.
-/
import proofs.«100892_j70695161692530_1_alg».proof.Defs
import proofs.«100892_j70695161692530_1_alg».proof.Proof.Gen.Kernel
import proofs.«100892_j70695161692530_1_alg».proof.Proof.Gen.Kernel.Skeleton
import proofs.«100892_j70695161692530_1_alg».proof.Proof.Gen.Kernel.Launch
import proofs.«100892_j70695161692530_1_alg».proof.Proof.Gen.Kernel.Points
import proofs.«100892_j70695161692530_1_alg».proof.Proof.Gen.Kernel.Frame
import proofs.«100892_j70695161692530_1_alg».proof.Proof.Gen.KernelIdeal
import proofs.«100892_j70695161692530_1_alg».proof.Proof.Gen.KernelIdeal.Skeleton
import proofs.«100892_j70695161692530_1_alg».proof.Proof.Gen.KernelIdeal.Launch
import proofs.«100892_j70695161692530_1_alg».proof.Proof.Gen.KernelIdeal.Points
import proofs.«100892_j70695161692530_1_alg».proof.Proof.Gen.KernelIdeal.Frame
import proofs.«100892_j70695161692530_1_alg».proof.Proof.Gen.ReferenceIdeal
import proofs.«100892_j70695161692530_1_alg».proof.Proof.Gen.Pre_finite_inputs
import proofs.«100892_j70695161692530_1_alg».proof.Proof.GraphNet
import proofs.«100892_j70695161692530_1_alg».proof.Proof.RefRun
import proofs.«100892_j70695161692530_1_alg».proof.Proof.RefNet
import proofs.«100892_j70695161692530_1_alg».proof.Proof.KernelRun
import proofs.«100892_j70695161692530_1_alg».proof.Proof.Fold
import proofs.«100892_j70695161692530_1_alg».proof.Proof.Dense0
import proofs.«100892_j70695161692530_1_alg».proof.Proof.Dense2
import proofs.«100892_j70695161692530_1_alg».proof.Proof.Hidden1
import proofs.«100892_j70695161692530_1_alg».proof.Proof.Classify3
import proofs.«100892_j70695161692530_1_alg».proof.Proof.Rows
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealized kernel program's result array after the run is the network of its argument arrays. -/
theorem kernel_result (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W9 m ρ c (Proc.devRef .tc Cert.KernelIdeal.main_v78)
      = Cert.GraphNet.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) :=
  Cert.KernelIdeal.Fold.result m ρ c Cert.KernelIdeal.Dense0.value Cert.KernelIdeal.Hidden1.value Cert.KernelIdeal.Dense2.value Cert.KernelIdeal.Classify3.value
    Cert.KernelIdeal.Rows.row256_eq Cert.KernelIdeal.Rows.row128_eq Cert.KernelIdeal.Rows.row2_eq

/-- Both idealized programs, from memories agreeing on the arguments, end with the network of the arguments in their
    result arrays. -/
theorem algebraic : Cert.algebraic_KernelIdeal_ReferenceIdeal := by
  intro m ρ m' ρ' _ hagree
  refine ⟨fun c => Cert.GraphNet.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Whole.run (F := Ideal) m ρ)
    exact ⟨(h c _ (Cert.KernelIdeal.Gen.mem_uc Cert.KernelIdeal.main_v78 (by decide))).trans (kernel_result m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c),
      (h c _ (Cert.KernelIdeal.Gen.mem_uc Cert.KernelIdeal.main_arg9 (by decide))).trans (Cert.KernelIdeal.Gen.W9_main_arg9 m ρ c),
      (h c _ (Cert.KernelIdeal.Gen.mem_uc Cert.KernelIdeal.main_arg10 (by decide))).trans (Cert.KernelIdeal.Gen.W9_main_arg10 m ρ c),
      (h c _ (Cert.KernelIdeal.Gen.mem_uc Cert.KernelIdeal.main_arg11 (by decide))).trans (Cert.KernelIdeal.Gen.W9_main_arg11 m ρ c)⟩
  · refine (θ_run Cert.ReferenceIdeal.defs _ _).mono (fun r h c => ⟨(h c).1.trans ?_, (h c).2⟩) (Cert.ReferenceIdeal.ValueP.run (F := Ideal) m' ρ')
    rw [Cert.ReferenceIdeal.Net.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
